-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S2x64 : Shape := ⟨2, ![2, 64]⟩
abbrev S40x128 : Shape := ⟨2, ![40, 128]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S2x64 : S_.BroadcastsInDim S2x64 (![] : Fin 0 → Fin S2x64.rank)
  reducesTo_S2x64_S_d0_1 : S2x64.ReducesTo [0, 1] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S40x128 .f32) (main_arg11 : FVec F S40 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S40x128 .f32 := Host.absf main_arg10
  let main_cst_16 : FVec F S_ .f32 := constant S_ .f32 0x7F800000#32
  let main_v45 : FVec F S40x128 .f32 := broadcastInDim S40x128 ![] bcast_S_S40x128 main_cst_16
  let main_v46 : IVec S40x128 1 := cmpf .olt main_v44 main_v45
  let main_c_17 : IVec S_ 1 := constantI S_ 1 1#1
  let main_v47 : IVec S_ 1 := (fun x v => Host.reduce IntOp.andi x v reducesTo_S40x128_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S128 .f32) (main_arg6 : FVec F S64x128 .f32) (main_arg7 : FVec F S2x64 .f32) (main_arg8 : FVec F S128 .f32) (main_arg9 : FVec F S128 .f32) (main_arg10 : FVec F S40x128 .f32) (main_arg11 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S2x64 .f32 := Host.absf main_arg7
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S64x128 .f32) (main_arg7 : FVec F S2x64 .f32) (main_arg8 : FVec F S128 .f32) (main_arg9 : FVec F S128 .f32) (main_arg10 : FVec F S40x128 .f32) (main_arg11 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S2x64 : Shape := ⟨2, ![2, 64]⟩
abbrev S40x128 : Shape := ⟨2, ![40, 128]⟩
abbrev S40 : Shape := ⟨1, ![40]⟩
abbrev S128x64 : Shape := ⟨2, ![128, 64]⟩
abbrev S1x128 : Shape := ⟨2, ![1, 128]⟩
abbrev S50000x64 : Shape := ⟨2, ![50000, 64]⟩
abbrev S5000x128 : Shape := ⟨2, ![5000, 128]⟩
abbrev S5000x64 : Shape := ⟨2, ![5000, 64]⟩
abbrev S5000 : Shape := ⟨1, ![5000]⟩
abbrev S5000x1 : Shape := ⟨2, ![5000, 1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S64 : Shape := ⟨1, ![64]⟩
abbrev S800000x2 : Shape := ⟨2, ![800000, 2]⟩
abbrev S8000x64 : Shape := ⟨2, ![8000, 64]⟩
abbrev S8000x2 : Shape := ⟨2, ![8000, 2]⟩
abbrev S8000 : Shape := ⟨1, ![8000]⟩
abbrev S8000x1 : Shape := ⟨2, ![8000, 1]⟩
abbrev S800000x2x1 : Shape := ⟨3, ![800000, 2, 1]⟩
abbrev S800000x1x64 : Shape := ⟨3, ![800000, 1, 64]⟩
abbrev S800000x2x64 : Shape := ⟨3, ![800000, 2, 64]⟩
abbrev S800000x128 : Shape := ⟨2, ![800000, 128]⟩
abbrev S128x40 : Shape := ⟨2, ![128, 40]⟩
abbrev S1x40 : Shape := ⟨2, ![1, 40]⟩
abbrev S50000x40 : Shape := ⟨2, ![50000, 40]⟩
abbrev S5000x40 : Shape := ⟨2, ![5000, 40]⟩

abbrev nBuf : Space → Nat
  | .hbm => 65
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S64x128, .f32⟩
  | .hbm, ⟨7, _⟩ => ⟨S2x64, .f32⟩
  | .hbm, ⟨8, _⟩ => ⟨S128, .f32⟩
  | .hbm, ⟨9, _⟩ => ⟨S128, .f32⟩
  | .hbm, ⟨10, _⟩ => ⟨S40x128, .f32⟩
  | .hbm, ⟨11, _⟩ => ⟨S40, .f32⟩
  | .hbm, ⟨12, _⟩ => ⟨S128x128, .f32⟩
  | .hbm, ⟨13, _⟩ => ⟨S128x64, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S50000x128, .f32⟩
  | .hbm, ⟨18, _⟩ => ⟨S50000x64, .f32⟩
  | .hbm, ⟨19, _⟩ => ⟨S1x800000, .i32⟩
  | .hbm, ⟨20, _⟩ => ⟨S800000, .i32⟩
  | .hbm, ⟨21, _⟩ => ⟨S1x800000, .i32⟩
  | .hbm, ⟨22, _⟩ => ⟨S800000, .i32⟩
  | .hbm, ⟨23, _⟩ => ⟨S50000x64, .bf16⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .bf16⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x64, .bf16⟩
  | .hbm, ⟨42, _⟩ => ⟨S1x64, .f32⟩
  | .hbm, ⟨43, _⟩ => ⟨S64, .f32⟩
  | .hbm, ⟨44, _⟩ => ⟨S1x64, .f32⟩
  | .hbm, ⟨45, _⟩ => ⟨S1x64, .f32⟩
  | .hbm, ⟨46, _⟩ => ⟨S64, .f32⟩
  | .hbm, ⟨47, _⟩ => ⟨S1x64, .f32⟩
  | .hbm, ⟨48, _⟩ => ⟨S800000x2, .f32⟩
  | .hbm, ⟨49, _⟩ => ⟨S800000x64, .f32⟩
  | .hbm, ⟨50, _⟩ => ⟨S800000x2x1, .f32⟩
  | .hbm, ⟨51, _⟩ => ⟨S800000x1x64, .f32⟩
  | .hbm, ⟨52, _⟩ => ⟨S800000x2x64, .f32⟩
  | .hbm, ⟨53, _⟩ => ⟨S800000x2x64, .f32⟩
  | .hbm, ⟨54, _⟩ => ⟨S800000x2x64, .f32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S1x128, .f32⟩
  | .hbm, ⟨61, _⟩ => ⟨S1x128, .f32⟩
  | .hbm, ⟨62, _⟩ => ⟨S128x40, .f32⟩
  | .hbm, ⟨63, _⟩ => ⟨S1x40, .f32⟩
  | .hbm, ⟨64, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S128x64, .f32⟩
  | .local _ .vmem, ⟨7, _⟩ => ⟨S5000x128, .f32⟩
  | .local _ .vmem, ⟨8, _⟩ => ⟨S5000x128, .f32⟩
  | .local _ .vmem, ⟨9, _⟩ => ⟨S5000x64, .f32⟩
  | .local _ .vmem, ⟨10, _⟩ => ⟨S5000x64, .f32⟩
  | .local _ .vmem, ⟨11, _⟩ => ⟨S8000x64, .bf16⟩
  | .local _ .vmem, ⟨12, _⟩ => ⟨S8000x64, .bf16⟩
  | .local _ .vmem, ⟨13, _⟩ => ⟨S8000x64, .bf16⟩
  | .local _ .vmem, ⟨14, _⟩ => ⟨S8000x64, .bf16⟩
  | .local _ .vmem, ⟨15, _⟩ => ⟨S1x64, .f32⟩
  | .local _ .vmem, ⟨16, _⟩ => ⟨S1x64, .f32⟩
  | .local _ .vmem, ⟨17, _⟩ => ⟨S8000x2, .f32⟩
  | .local _ .vmem, ⟨18, _⟩ => ⟨S8000x2, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S1x128, .f32⟩
  | .local _ .vmem, ⟨24, _⟩ => ⟨S1x128, .f32⟩
  | .local _ .vmem, ⟨25, _⟩ => ⟨S128x40, .f32⟩
  | .local _ .vmem, ⟨26, _⟩ => ⟨S1x40, .f32⟩
  | .local _ .vmem, ⟨27, _⟩ => ⟨S5000x40, .f32⟩
  | .local _ .vmem, ⟨28, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_1 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg6_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem6_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x40 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x40 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  transposes_S128x128_S128x128_1_0 : S128x128.Transposes [1, 0] S128x128
  transposes_S64x128_S128x64_1_0 : S64x128.Transposes [1, 0] S128x64
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S2x64_S1x64_0_0 : S2x64.Slices ![0, 0] S1x64
  shapeCasts_S1x64_S64 : S1x64.ShapeCasts S64
  shapeCasts_S64_S1x64 : S64.ShapeCasts S1x64
  slices_S2x64_S1x64_1_0 : S2x64.Slices ![1, 0] S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  reduces_S8000x64_S8000 : S8000x64.Reduces [1] S8000
  shapeCasts_S8000_S8000x1 : S8000.ShapeCasts S8000x1
  concatenates_S8000x1_S8000x1_S8000x2_d1 : Shape.Concatenates [S8000x1, S8000x1] S8000x2 1
  inb_S8000x2_S8000x2_0_0 : ∀ a, (![0, 0] : Fin 2 → Nat) a + S8000x2.size a ≤ S8000x2.size a
  h_S8000x2 : 0 < S8000x2.numel
  bcast_S800000x2_S800000x2x1_0_1 : S800000x2.BroadcastsInDim S800000x2x1 (![0, 1] : Fin 2 → Fin S800000x2x1.rank)
  bcast_S800000x64_S800000x1x64_0_2 : S800000x64.BroadcastsInDim S800000x1x64 (![0, 2] : Fin 2 → Fin S800000x1x64.rank)
  bcast_S800000x2x1_S800000x2x64_0_1_2 : S800000x2x1.BroadcastsInDim S800000x2x64 (![0, 1, 2] : Fin 3 → Fin S800000x2x64.rank)
  bcast_S800000x1x64_S800000x2x64_0_1_2 : S800000x1x64.BroadcastsInDim S800000x2x64 (![0, 1, 2] : Fin 3 → Fin S800000x2x64.rank)
  shapeCasts_S800000x2x64_S800000x128 : S800000x2x64.ShapeCasts S800000x128
  bcast_S_S50000x128 : S_.BroadcastsInDim S50000x128 (![] : Fin 0 → Fin S50000x128.rank)
  transposes_S40x128_S128x40_1_0 : S40x128.Transposes [1, 0] S128x40
  shapeCasts_S40_S1x40 : S40.ShapeCasts S1x40
  shapeCasts_S5000x128_S5000x128 : S5000x128.ShapeCasts S5000x128
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x128_S800000x1_S800000x128_1_0_0_1_wf : ScatterDims.WF S50000x128 S800000x1 S800000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S50000x64.size a
  hwx0_7 : ∀ i : grid0.Coords, EltTy.bits .f32 = 32 ∨ (Rect.block (s := S50000x64) S5000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S800000x64.size a
  hwx1_0 : ∀ i : grid1.Coords, EltTy.bits .bf16 = 32 ∨ (Rect.block (s := S800000x64) S8000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S800000x64.size a
  hwx1_1 : ∀ i : grid1.Coords, EltTy.bits .bf16 = 32 ∨ (Rect.block (s := S800000x64) S8000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x2.size a ≤ S800000x2.size a
  hwx1_4 : ∀ i : grid1.Coords, EltTy.bits .f32 = 32 ∨ (Rect.block (s := S800000x2) S8000x2.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x40.size a ≤ S128x40.size a
  hwx2_4 : ∀ i : grid2.Coords, EltTy.bits .f32 = 32 ∨ (Rect.block (s := S128x40) S128x40.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x40.size a ≤ S1x40.size a
  hwx2_5 : ∀ i : grid2.Coords, EltTy.bits .f32 = 32 ∨ (Rect.block (s := S1x40) S1x40.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x40.size a ≤ S50000x40.size a
  hwx2_6 : ∀ i : grid2.Coords, EltTy.bits .f32 = 32 ∨ (Rect.block (s := S50000x40) S5000x40.size (cc2_transform_6 i) (hinb2_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v17) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S8000x2.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v5_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S128x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S1x40.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S5000x40.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S2x64 : Shape := ⟨2, ![2, 64]⟩
abbrev S40x128 : Shape := ⟨2, ![40, 128]⟩
abbrev S40 : Shape := ⟨1, ![40]⟩
abbrev S1x128 : Shape := ⟨2, ![1, 128]⟩
abbrev S_ : Shape := ⟨0, ![]⟩
abbrev S50000 : Shape := ⟨1, ![50000]⟩
abbrev S50000x1 : Shape := ⟨2, ![50000, 1]⟩
abbrev S128x64 : Shape := ⟨2, ![128, 64]⟩
abbrev S50000x64 : Shape := ⟨2, ![50000, 64]⟩
abbrev S1x800000 : Shape := ⟨2, ![1, 800000]⟩
abbrev S800000 : Shape := ⟨1, ![800000]⟩
abbrev S800000x1 : Shape := ⟨2, ![800000, 1]⟩
abbrev S800000x64 : Shape := ⟨2, ![800000, 64]⟩
abbrev S64x2 : Shape := ⟨2, ![64, 2]⟩
abbrev S800000x2 : Shape := ⟨2, ![800000, 2]⟩
abbrev S800000x2x1 : Shape := ⟨3, ![800000, 2, 1]⟩
abbrev S800000x1x64 : Shape := ⟨3, ![800000, 1, 64]⟩
abbrev S800000x2x64 : Shape := ⟨3, ![800000, 2, 64]⟩
abbrev S800000x128 : Shape := ⟨2, ![800000, 128]⟩
abbrev S128x40 : Shape := ⟨2, ![128, 40]⟩
abbrev S50000x40 : Shape := ⟨2, ![50000, 40]⟩
abbrev S1x40 : Shape := ⟨2, ![1, 40]⟩

abbrev nBuf : Space → Nat
  | .hbm => 153
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S64x128, .f32⟩
  | 7 => ⟨S2x64, .f32⟩
  | 8 => ⟨S128, .f32⟩
  | 9 => ⟨S128, .f32⟩
  | 10 => ⟨S40x128, .f32⟩
  | 11 => ⟨S40, .f32⟩
  | 12 => ⟨S128x128, .f32⟩
  | 13 => ⟨S50000x128, .f32⟩
  | 14 => ⟨S1x128, .f32⟩
  | 15 => ⟨S50000x128, .f32⟩
  | 16 => ⟨S50000x128, .f32⟩
  | 17 => ⟨S_, .f32⟩
  | 18 => ⟨S50000x128, .f32⟩
  | 19 => ⟨S50000x128, .f32⟩
  | 20 => ⟨S_, .f32⟩
  | 21 => ⟨S50000, .f32⟩
  | 22 => ⟨S50000x1, .f32⟩
  | 23 => ⟨S_, .f32⟩
  | 24 => ⟨S50000x1, .f32⟩
  | 25 => ⟨S50000x1, .f32⟩
  | 26 => ⟨S50000x128, .f32⟩
  | 27 => ⟨S50000x128, .f32⟩
  | 28 => ⟨S50000x128, .f32⟩
  | 29 => ⟨S_, .f32⟩
  | 30 => ⟨S50000, .f32⟩
  | 31 => ⟨S50000x1, .f32⟩
  | 32 => ⟨S_, .f32⟩
  | 33 => ⟨S50000x1, .f32⟩
  | 34 => ⟨S50000x1, .f32⟩
  | 35 => ⟨S50000x128, .f32⟩
  | 36 => ⟨S50000x128, .f32⟩
  | 37 => ⟨S_, .f32⟩
  | 38 => ⟨S50000x1, .f32⟩
  | 39 => ⟨S50000x1, .f32⟩
  | 40 => ⟨S50000x1, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S128x64, .f32⟩
  | 50 => ⟨S50000x64, .f32⟩
  | 51 => ⟨S1x800000, .i32⟩
  | 52 => ⟨S800000, .i32⟩
  | 53 => ⟨S1x800000, .i32⟩
  | 54 => ⟨S800000, .i32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x64, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x64, .f32⟩
  | 73 => ⟨S_, .f32⟩
  | 74 => ⟨S800000x64, .f32⟩
  | 75 => ⟨S800000x64, .f32⟩
  | 76 => ⟨S800000x64, .f32⟩
  | 77 => ⟨S_, .f32⟩
  | 78 => ⟨S800000x64, .f32⟩
  | 79 => ⟨S800000x64, .f32⟩
  | 80 => ⟨S64x2, .f32⟩
  | 81 => ⟨S800000x2, .f32⟩
  | 82 => ⟨S_, .f32⟩
  | 83 => ⟨S800000x2, .f32⟩
  | 84 => ⟨S800000x2, .f32⟩
  | 85 => ⟨S_, .f32⟩
  | 86 => ⟨S800000, .f32⟩
  | 87 => ⟨S_, .f32⟩
  | 88 => ⟨S800000, .f32⟩
  | 89 => ⟨S800000, .f32⟩
  | 90 => ⟨S800000x1, .f32⟩
  | 91 => ⟨S800000x2, .f32⟩
  | 92 => ⟨S800000x2, .f32⟩
  | 93 => ⟨S800000x2, .f32⟩
  | 94 => ⟨S_, .f32⟩
  | 95 => ⟨S800000, .f32⟩
  | 96 => ⟨S800000x1, .f32⟩
  | 97 => ⟨S800000x2, .f32⟩
  | 98 => ⟨S800000x2, .f32⟩
  | 99 => ⟨S800000x2x1, .f32⟩
  | 100 => ⟨S800000x1x64, .f32⟩
  | 101 => ⟨S800000x2x64, .f32⟩
  | 102 => ⟨S800000x2x64, .f32⟩
  | 103 => ⟨S800000x2x64, .f32⟩
  | 104 => ⟨S800000x128, .f32⟩
  | 105 => ⟨S_, .f32⟩
  | 106 => ⟨S50000x128, .f32⟩
  | 107 => ⟨S800000x1, .i32⟩
  | 108 => ⟨S50000x128, .f32⟩
  | 109 => ⟨S_, .f32⟩
  | 110 => ⟨S50000x128, .f32⟩
  | 111 => ⟨S50000x128, .f32⟩
  | 112 => ⟨S_, .f32⟩
  | 113 => ⟨S50000, .f32⟩
  | 114 => ⟨S50000x1, .f32⟩
  | 115 => ⟨S_, .f32⟩
  | 116 => ⟨S50000x1, .f32⟩
  | 117 => ⟨S50000x1, .f32⟩
  | 118 => ⟨S50000x128, .f32⟩
  | 119 => ⟨S50000x128, .f32⟩
  | 120 => ⟨S50000x128, .f32⟩
  | 121 => ⟨S_, .f32⟩
  | 122 => ⟨S50000, .f32⟩
  | 123 => ⟨S50000x1, .f32⟩
  | 124 => ⟨S_, .f32⟩
  | 125 => ⟨S50000x1, .f32⟩
  | 126 => ⟨S50000x1, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S50000x1, .f32⟩
  | 3 => ⟨S50000x1, .f32⟩
  | 4 => ⟨S50000x1, .f32⟩
  | 5 => ⟨S50000x128, .f32⟩
  | 6 => ⟨S50000x128, .f32⟩
  | 7 => ⟨S1x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S_, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S50000x128, .f32⟩
  | 20 => ⟨S128x40, .f32⟩
  | 21 => ⟨S50000x40, .f32⟩
  | 22 => ⟨S1x40, .f32⟩
  | 23 => ⟨S50000x40, .f32⟩
  | 24 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c : Ref sig .tc := ⟨.hbm, 55, rfl⟩
abbrev main_v36 : Ref sig .tc := ⟨.hbm, 56, rfl⟩
abbrev main_v37 : Ref sig .tc := ⟨.hbm, 57, rfl⟩
abbrev main_c_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_5 : Ref sig .tc := ⟨.hbm, 64, rfl⟩
abbrev main_v43 : Ref sig .tc := ⟨.hbm, 65, rfl⟩
abbrev main_v44 : Ref sig .tc := ⟨.hbm, 66, rfl⟩
abbrev main_c_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_7 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call1_cst : Ref sig .tc := ⟨.hbm, 77, rfl⟩
abbrev main_call1_v0 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_8 : Ref sig .tc := ⟨.hbm, 82, rfl⟩
abbrev main_v56 : Ref sig .tc := ⟨.hbm, 83, rfl⟩
abbrev main_v57 : Ref sig .tc := ⟨.hbm, 84, rfl⟩
abbrev main_cst_9 : Ref sig .tc := ⟨.hbm, 85, rfl⟩
abbrev main_v58 : Ref sig .tc := ⟨.hbm, 86, rfl⟩
abbrev main_cst_10 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_11 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_12 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_call2_cst : Ref sig .tc := ⟨.hbm, 109, rfl⟩
abbrev main_call2_v0 : Ref sig .tc := ⟨.hbm, 110, rfl⟩
abbrev main_v78 : Ref sig .tc := ⟨.hbm, 111, rfl⟩
abbrev main_cst_13 : Ref sig .tc := ⟨.hbm, 112, rfl⟩
abbrev main_v79 : Ref sig .tc := ⟨.hbm, 113, rfl⟩
abbrev main_v80 : Ref sig .tc := ⟨.hbm, 114, rfl⟩
abbrev main_cst_14 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_15 : Ref sig .tc := ⟨.hbm, 121, rfl⟩
abbrev main_v86 : Ref sig .tc := ⟨.hbm, 122, rfl⟩
abbrev main_v87 : Ref sig .tc := ⟨.hbm, 123, rfl⟩
abbrev main_cst_16 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_17 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_18 : Ref sig .tc := ⟨.hbm, 141, rfl⟩
abbrev main_v103 : Ref sig .tc := ⟨.hbm, 142, rfl⟩
abbrev main_v104 : Ref sig .tc := ⟨.hbm, 143, rfl⟩
abbrev main_cst_19 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S64x128_S128x64_1_0 : S64x128.Transposes [1, 0] S128x64
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x64 : S_.BroadcastsInDim S800000x64 (![] : Fin 0 → Fin S800000x64.rank)
  transposes_S2x64_S64x2_1_0 : S2x64.Transposes [1, 0] S64x2
  bcast_S_S800000x2 : S_.BroadcastsInDim S800000x2 (![] : Fin 0 → Fin S800000x2.rank)
  reducesTo_S800000x2_S800000_d1 : S800000x2.ReducesTo [1] S800000
  bcast_S800000x1_S800000x2_0_1 : S800000x1.BroadcastsInDim S800000x2 (![0, 1] : Fin 2 → Fin S800000x2.rank)
  bcast_S800000x2_S800000x2x1_0_1 : S800000x2.BroadcastsInDim S800000x2x1 (![0, 1] : Fin 2 → Fin S800000x2x1.rank)
  bcast_S800000x64_S800000x1x64_0_2 : S800000x64.BroadcastsInDim S800000x1x64 (![0, 2] : Fin 2 → Fin S800000x1x64.rank)
  bcast_S800000x2x1_S800000x2x64_0_1_2 : S800000x2x1.BroadcastsInDim S800000x2x64 (![0, 1, 2] : Fin 3 → Fin S800000x2x64.rank)
  bcast_S800000x1x64_S800000x2x64_0_1_2 : S800000x1x64.BroadcastsInDim S800000x2x64 (![0, 1, 2] : Fin 3 → Fin S800000x2x64.rank)
  shapeCasts_S800000x2x64_S800000x128 : S800000x2x64.ShapeCasts S800000x128
  transposes_S40x128_S128x40_1_0 : S40x128.Transposes [1, 0] S128x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  dot_S800000x64_S64x2_S800000x2_1_0_0_1_n_n_wf : DotDims.WF S800000x64 S64x2 S800000x2 [1] [0] [0] [1] [] []
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x2_S800000x2_1_0_0_1_n_n : DotDims S800000x64 S64x2 S800000x2 where
  lhsContracting := [1]
  rhsContracting := [0]
  lhsNonContracting := [0]
  rhsNonContracting := [1]
  lhsBatch := []
  rhsBatch := []
  wf := dot_S800000x64_S64x2_S800000x2_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KernelRun.lean ====
/-
  The idealized kernel's run with its result NAMED: every weakly fair execution of @main terminates, nothing faulting,
  the argument arrays end as launched, and the result buffer ends at the last boundary's contents `Gen.W6` — the fold of
  the three stretches of host operations and the three regions' write-backs from the launch memory. The same launch
  theorem over the same six segments as the generated frame, with one more buffer read back from the last thread state.
-/
import proofs.«123778_j26439818674288_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result buffer named. -/
theorem run : θ_run defs (onTc (τ := τ) (main (F := F))) ⟨m, fun _ => 0, ρ⟩ (fun r => ∀ c : Dev nD,
      r.2.mem ((c.tc : Thread nD τ).loc main_v46) = W6 m ρ c (Proc.devRef .tc main_v46) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v46 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.Named

end
-- ==== Proof.LayerNorm.lean ====
/-
  Layer normalisation of one row of extended reals, in the two spellings the two programs use, and the law that joins them.
  For a row v of n entries: mean v = (Σ v k) / 128, var v = (Σ (v k − mean v)²) / 128, and
    lnK v g b q = (v q − mean v) · rsqrt (var v + ε) · g q + b q      (a product with the reciprocal square root)
    lnR v g b q = (v q − mean v) / sqrt (var v + ε) · g q + b q       (a quotient by the square root).
  On the extended reals a square is never negative, so var v lies in [0, +∞] and var v + ε in (0, +∞]; there
  x · rsqrt y = x / sqrt y for every extended real x (at +∞ both sides are 0), so the two spellings agree on every row,
  finite or not.
-/
import Idealize.ShloMosaic.PureOps.Ideal

noncomputable section

open scoped BigOperators

namespace Cert.LN

open Idealize.ShloMosaic

/-- The row length as the programs' float literal 128.0. -/
def n128 : EReal := Ideal.ofBits .f32 0x43000000#32
/-- The programs' ε (the float nearest 1e-5). -/
def eps : EReal := Ideal.ofBits .f32 0x3727C5AC#32

def mean {n : ℕ} (v : Fin n → EReal) : EReal := Ideal.div (∑ k, v k) n128
def var {n : ℕ} (v : Fin n → EReal) : EReal := Ideal.div (∑ k, (v k - mean v) * (v k - mean v)) n128

/-- The kernel's spelling. -/
def lnK {n : ℕ} (v g b : Fin n → EReal) (q : Fin n) : EReal :=
  (v q - mean v) * Ideal.rsqrt (var v + eps) * g q + b q

/-- The reference's spelling. -/
def lnR {n : ℕ} (v g b : Fin n → EReal) (q : Fin n) : EReal :=
  Ideal.div (v q - mean v) (Ideal.sqrt (var v + eps)) * g q + b q

/-! ## The law -/

/-- The literal 128.0 is the real number 128. -/
theorem n128_eq : n128 = ((128 : ℝ) : EReal) := by
  simp [n128, Ideal.ofBits, Ideal.ieee, -EReal.coe_mul]; norm_num

/-- The literal ε is a positive real. -/
theorem eps_pos : ∃ e : ℝ, 0 < e ∧ eps = (e : EReal) := by
  refine ⟨(10995116 : ℝ) * (2 : ℝ) ^ (-40 : ℤ), by positivity, ?_⟩
  simp [eps, Ideal.ofBits, Ideal.ieee, -EReal.coe_mul]

/-- A square is never negative on the extended reals. -/
theorem mul_self_nonneg (x : EReal) : 0 ≤ x * x := by
  induction x using EReal.rec with
  | bot => rw [EReal.bot_mul_bot]; exact le_top
  | coe r => rw [← EReal.coe_mul]; exact_mod_cast _root_.mul_self_nonneg r
  | top => rw [EReal.top_mul_top]; exact le_top

/-- A nonnegative extended real divided by 128 is nonnegative. -/
theorem div_n128_nonneg {x : EReal} (hx : 0 ≤ x) : 0 ≤ Ideal.div x n128 := by
  rw [n128_eq, Ideal.div_coe (by norm_num : (128 : ℝ) ≠ 0)]
  exact mul_nonneg hx (by exact_mod_cast (by norm_num : (0 : ℝ) ≤ 1 / 128))

theorem var_nonneg {n : ℕ} (v : Fin n → EReal) : 0 ≤ var v :=
  div_n128_nonneg (Finset.sum_nonneg fun k _ => mul_self_nonneg _)

/-- The variance plus ε is positive. -/
theorem var_add_eps_pos {n : ℕ} (v : Fin n → EReal) : 0 < var v + eps := by
  obtain ⟨e, he, h⟩ := eps_pos
  rw [h]
  have h0 := var_nonneg v
  calc (0 : EReal) < (e : EReal) := by exact_mod_cast he
    _ = 0 + (e : EReal) := (zero_add _).symm
    _ ≤ var v + (e : EReal) := add_le_add_left h0 _

/-- On a positive extended real y (+∞ included), x · rsqrt y = x / sqrt y for every extended real x. -/
theorem mul_rsqrt_eq_div_sqrt (x y : EReal) (hy : 0 < y) : x * Ideal.rsqrt y = Ideal.div x (Ideal.sqrt y) := by
  induction y using EReal.rec with
  | bot => exact absurd hy (by simp)
  | top =>
    show x * 0 = Ideal.div x ⊤
    unfold Ideal.div
    rw [if_neg (by simp), EReal.inv_top]
  | coe r =>
    have hr : 0 < r := by exact_mod_cast hy
    have hs : 0 < Real.sqrt r := Real.sqrt_pos.mpr hr
    show x * (if r < 0 then ⊥ else if r = 0 then ⊤ else (((Real.sqrt r)⁻¹ : ℝ) : EReal))
      = Ideal.div x (if r < 0 then ⊥ else ((Real.sqrt r : ℝ) : EReal))
    rw [if_neg (not_lt.mpr hr.le), if_neg hr.ne', if_neg (not_lt.mpr hr.le), Ideal.div_coe hs.ne', one_div]

/-- The two spellings of the layer normalisation agree on every row. -/
theorem lnK_eq_lnR : @lnK = @lnR := by
  funext n v g b q
  unfold lnK lnR
  rw [mul_rsqrt_eq_div_sqrt _ _ (var_add_eps_pos v)]

end Cert.LN

end
-- ==== Proof.EgoSpec.lean ====
/-
  The first stage of the network, one row at a time, on the extended reals.
  For a row x of 128 features: z q = max (Σ_k x k · W1 q k + b1 q) 0 (a dense layer and a rectifier),
  h0 = the layer normalisation of z with scale g0 and shift beta0, and h j = Σ_k h0 k · Wlin j k (a dense layer, no bias).
  The layer normalisation is a parameter, so that the two programs' spellings of it share these definitions.
-/
import proofs.«123778_j26439818674288_2_alg».proof.Proof.LayerNorm

noncomputable section

open scoped BigOperators

namespace Cert.Ego

open Idealize.ShloMosaic

/-- The float literal 0.0. -/
def zero : EReal := Ideal.ofBits .f32 0x00000000#32

/-- The dense layer and the rectifier on one row. -/
def zRow (x : Fin 128 → EReal) (W1 : Fin 128 → Fin 128 → EReal) (b1 : Fin 128 → EReal) (q : Fin 128) : EReal :=
  max ((∑ k, x k * W1 q k) + b1 q) zero

/-- The normalised row. -/
def h0Row (ln : (Fin 128 → EReal) → (Fin 128 → EReal) → (Fin 128 → EReal) → Fin 128 → EReal)
    (x : Fin 128 → EReal) (W1 : Fin 128 → Fin 128 → EReal) (b1 g0 beta0 : Fin 128 → EReal) (q : Fin 128) : EReal :=
  ln (zRow x W1 b1) g0 beta0 q

/-- The second dense layer on one normalised row. -/
def hRow (h0 : Fin 128 → EReal) (Wlin : Fin 64 → Fin 128 → EReal) (j : Fin 64) : EReal :=
  ∑ k, h0 k * Wlin j k

end Cert.Ego

end
-- ==== Proof.LibColumns.lean ====
/-
  Two-dimensional layout operations and row sums read at an index `(r, k)`, for matrices of `n` rows.
  Each lemma says which single entry of the operand an entry of the result is: a vector turned into a one-column matrix and
  back, a one-column matrix repeated along its rows, a scalar repeated everywhere, five one-column matrices put side by
  side, a ten-column and a five-column matrix put side by side, and the sum of a row's entries (a lane reduction, and the
  host's reduce, which adds the initial value). Nothing here depends on a program.
-/
import Idealize.ShloMosaic.Lib.Pipeline.Value
import Idealize.ShloMosaic.Lib.ValueIdx
import Idealize.ShloMosaic.PureOps.Ideal.Laws

noncomputable section

open scoped BigOperators

namespace Cert.LibColumns

open Idealize.ShloMosaic Idealize.ShloMosaic.ValueIdx

variable {α : Type}

/-- A vector of length `n` reshaped to an `n × 1` matrix: entry `(r, 0)` is entry `r`. -/
theorem shapeCast_vec_col {n : Nat} (v : (⟨1, ![n]⟩ : Shape).Idx → α)
    (h : (⟨1, ![n]⟩ : Shape).ShapeCasts ⟨2, ![n, 1]⟩) (r : Fin n) :
    shapeCast ⟨2, ![n, 1]⟩ v h (ix2 r 0) = v (ix1 r) :=
  shapeCast_apply v h (ix2 r 0) (ix1 r) (by
    rw [Shape.rowMajor_val_one, Shape.rowMajor_val_two]
    show r.val = r.val * 1 + 0
    omega)

/-- An `n × 1` matrix reshaped to a vector of length `n`: entry `r` is entry `(r, 0)`. -/
theorem shapeCast_col_vec {n : Nat} (v : (⟨2, ![n, 1]⟩ : Shape).Idx → α)
    (h : (⟨2, ![n, 1]⟩ : Shape).ShapeCasts ⟨1, ![n]⟩) (r : Fin n) :
    shapeCast ⟨1, ![n]⟩ v h (ix1 r) = v (ix2 r 0) :=
  shapeCast_apply v h (ix1 r) (ix2 r 0) (by
    rw [Shape.rowMajor_val_one, Shape.rowMajor_val_two]
    show r.val * 1 + 0 = r.val
    omega)

/-- An `n × 1` matrix repeated to `n × m` (a vector broadcast): entry `(r, j)` is entry `(r, 0)`. -/
theorem broadcastTo_col {n m : Nat} (v : (⟨2, ![n, 1]⟩ : Shape).Idx → α)
    (h : (⟨2, ![n, 1]⟩ : Shape).Broadcasts ⟨2, ![n, m]⟩) (r : Fin n) (j : Fin m) :
    broadcastTo ⟨2, ![n, m]⟩ v h (ix2 r j) = v (ix2 r 0) :=
  broadcastTo_apply v h (ix2 r j) (ix2 r 0) (fun a => by
    match a with
    | ⟨0, _⟩ =>
      show r.val = if n = 1 then 0 else r.val
      have := r.isLt
      split <;> omega
    | ⟨1, _⟩ => exact (if_pos rfl).symm)

/-- A vector of length `n` placed as the column of an `n × 1` matrix by a broadcast along axis 0. -/
theorem broadcastInDim_vec_col {n : Nat} (dims : Fin 1 → Fin 2) (hd : dims 0 = 0)
    (h : (⟨1, ![n]⟩ : Shape).BroadcastsInDim ⟨2, ![n, 1]⟩ dims) (v : (⟨1, ![n]⟩ : Shape).Idx → α) (r : Fin n) :
    broadcastInDim ⟨2, ![n, 1]⟩ dims h v (ix2 r 0) = v (ix1 r) :=
  broadcastInDim_apply dims h v (ix2 r 0) (ix1 r) (fun a => by
    match a with
    | ⟨0, _⟩ =>
      show r.val = if n = 1 then 0 else (ix2 r (0 : Fin 1) (dims 0)).val
      rw [hd]
      show r.val = if n = 1 then 0 else r.val
      have := r.isLt
      split <;> omega)

/-- An `n × 1` matrix repeated to `n × m` by a broadcast along both axes: entry `(r, j)` is entry `(r, 0)`. -/
theorem broadcastInDim_col_mat {n m : Nat} (dims : Fin 2 → Fin 2) (hd0 : dims 0 = 0) (hd1 : dims 1 = 1)
    (h : (⟨2, ![n, 1]⟩ : Shape).BroadcastsInDim ⟨2, ![n, m]⟩ dims) (v : (⟨2, ![n, 1]⟩ : Shape).Idx → α)
    (r : Fin n) (j : Fin m) :
    broadcastInDim ⟨2, ![n, m]⟩ dims h v (ix2 r j) = v (ix2 r 0) :=
  broadcastInDim_apply dims h v (ix2 r j) (ix2 r 0) (fun a => by
    match a with
    | ⟨0, _⟩ =>
      show r.val = if n = 1 then 0 else (ix2 r j (dims 0)).val
      rw [hd0]
      show r.val = if n = 1 then 0 else r.val
      have := r.isLt
      split <;> omega
    | ⟨1, _⟩ => exact (if_pos rfl).symm)

/-- A scalar repeated over any shape: every entry is the scalar. -/
theorem broadcastInDim_scalar {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun a => a.elim0)

/-- Five `n × 1` matrices side by side, read at `(r, k)`: the `k`-th of them at `(r, 0)`. -/
theorem concat5_apply {n : Nat} (p0 p1 p2 p3 p4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (r : Fin n) (k : Fin 5) :
    concatenate ⟨2, ![n, 5]⟩ 1 [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r k)
      = (match k with | ⟨0, _⟩ => p0 | ⟨1, _⟩ => p1 | ⟨2, _⟩ => p2 | ⟨3, _⟩ => p3 | ⟨4, _⟩ => p4) (ix2 r 0) := by
  have hi : ∀ (k : Fin 5) (b : Fin 2), b.cast rfl ≠ (1 : Fin 2) → ((ix2 r (0 : Fin 1)) b).val = ((ix2 r k) (b.cast rfl)).val := by
    intro k b hb
    match b with
    | ⟨0, _⟩ => rfl
    | ⟨1, _⟩ => exact absurd rfl hb
  match k with
  | ⟨0, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨0, hk⟩)
      0 (by simp) ⟨2, ![n, 1]⟩ p0 rfl rfl 0 rfl (ix2 r 0) (hi _) rfl
  | ⟨1, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨1, hk⟩)
      1 (by simp) ⟨2, ![n, 1]⟩ p1 rfl rfl 1 rfl (ix2 r 0) (hi _) rfl
  | ⟨2, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨2, hk⟩)
      2 (by simp) ⟨2, ![n, 1]⟩ p2 rfl rfl 2 rfl (ix2 r 0) (hi _) rfl
  | ⟨3, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨3, hk⟩)
      3 (by simp) ⟨2, ![n, 1]⟩ p3 rfl rfl 3 rfl (ix2 r 0) (hi _) rfl
  | ⟨4, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨4, hk⟩)
      4 (by simp) ⟨2, ![n, 1]⟩ p4 rfl rfl 4 rfl (ix2 r 0) (hi _) rfl

/-- An `n × 10` and an `n × 5` matrix side by side, read in the first ten columns. -/
theorem concat_10_5_left {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 10)
    (hc : c'.val = c.val) :
    concatenate ⟨2, ![n, 15]⟩ 1 [⟨⟨2, ![n, 10]⟩, a⟩, ⟨⟨2, ![n, 5]⟩, b⟩] h (ix2 r c) = a (ix2 r c') :=
  concatenate_pair_apply_left 1 a b h (ix2 r c) rfl (ix2 r c') (fun d => by
    match d with
    | ⟨0, _⟩ => rfl
    | ⟨1, _⟩ => exact hc)

/-- … and in the last five. -/
theorem concat_10_5_right {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 5)
    (hc : c'.val + 10 = c.val) :
    concatenate ⟨2, ![n, 15]⟩ 1 [⟨⟨2, ![n, 10]⟩, a⟩, ⟨⟨2, ![n, 5]⟩, b⟩] h (ix2 r c) = b (ix2 r c') :=
  concatenate_pair_apply_right 1 a b h (ix2 r c) rfl rfl (ix2 r c') (fun d hd => by
    match d with
    | ⟨0, _⟩ => rfl
    | ⟨1, _⟩ => exact absurd rfl hd) hc

/-- The index over row `r` with `k` inserted on the summed axis is `(r, k)`. -/
theorem lift_rows {n m : Nat} (h : (⟨2, ![n, m]⟩ : Shape).Reduces [1] ⟨1, ![n]⟩) (r : Fin n) (k : Fin m) :
    h.lift (ix1 r) k = ix2 r k := by
  funext c
  apply Fin.ext
  match c with
  | ⟨0, _⟩ => rfl
  | ⟨1, _⟩ => rfl

/-- A lane reduction by addition of an `n × m` matrix along its rows, on the extended reals: the sum of the row. -/
theorem multiReduction_rows {n m : Nat} (src : FVec Ideal ⟨2, ![n, m]⟩ .f32)
    (h : (⟨2, ![n, m]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ k : Fin m, src (ix2 r k) :=
  (Ideal.multiReduction_add_single src 0x00000000#32 h hφ hacc (ix1 r)).trans
    (Finset.sum_congr rfl fun k _ => congrArg src (lift_rows h r k))

/-- The host's sum of an `n × m` matrix along its rows, on the extended reals: the initial value plus the sum of the row. -/
theorem hostReduceAdd_rows {n m : Nat} (x : FVec Ideal ⟨2, ![n, m]⟩ .f32) (init : (⟨0, ![]⟩ : Shape).Idx → EReal)
    (h' : (⟨2, ![n, m]⟩ : Shape).ReducesTo [1] ⟨1, ![n]⟩) (hu : 0 < (⟨0, ![]⟩ : Shape).numel)
    (h : (⟨2, ![n, m]⟩ : Shape).Reduces [1] ⟨1, ![n]⟩) (r : Fin n) :
    Host.reduceAdd (F := Ideal) x init h' hu (ix1 r) = init ix0 + ∑ k : Fin m, x (ix2 r k) := by
  have e0 : Shape.Idx.first hu = ix0 := funext fun a => a.elim0
  show Ideal.hostReduceAdd h' x (init (Shape.Idx.first hu)) (ix1 r) = _
  rw [e0]
  exact (Ideal.hostReduceAdd_single h' h x (init ix0) (ix1 r)).trans
    (congrArg (init ix0 + ·) (Finset.sum_congr rfl fun k _ => congrArg x (lift_rows h r k)))

end Cert.LibColumns

end
-- ==== Proof.LibDotSum.lean ====
/-
  A matrix product read at an entry.  For dimension numbers `d` of a plain product `[A,K] × [K,M] → [A,M]`
  (one contracted axis: the columns of the left factor against the rows of the right one, no batch axis) the sum over
  the contraction index of the factors' products, at the entry `(p, j)`, is the textbook sum
  `∑ k, l (p, k) · r (k, j)` over `Fin K`.  The four coordinate facts `hl0 … hr1` say what "plain" means; they are
  proved once per record, at literal extents.  Then the two products a program can spell — a `tpu.matmul` into a zero
  accumulator and the host's `dot_general` — are that sum on the extended reals.
-/
import Idealize.ShloMosaic.Lib.ValueIdx
import Idealize.ShloMosaic.PureOps.Ideal.Laws

noncomputable section

namespace Cert.DotSum

open Idealize.ShloMosaic Idealize.ShloMosaic.ValueIdx

/-- The contraction sum of a plain product at the entry `(p, j)`, re-indexed over `Fin K`. -/
theorem contr_sum {A K M : ℕ} (d : DotDims ⟨2, ![A, K]⟩ ⟨2, ![K, M]⟩ ⟨2, ![A, M]⟩)
    (hr : d.contr.rank = 1) (hs : d.contr.size ⟨0, by omega⟩ = K)
    (hl0 : ∀ (i : (⟨2, ![A, M]⟩ : Shape).Idx) (q : d.contr.Idx), (d.lhsIdx i q 0).val = (i 0).val)
    (hl1 : ∀ (i : (⟨2, ![A, M]⟩ : Shape).Idx) (q : d.contr.Idx), (d.lhsIdx i q 1).val = (q ⟨0, by omega⟩).val)
    (hr0 : ∀ (i : (⟨2, ![A, M]⟩ : Shape).Idx) (q : d.contr.Idx), (d.rhsIdx i q 0).val = (q ⟨0, by omega⟩).val)
    (hr1 : ∀ (i : (⟨2, ![A, M]⟩ : Shape).Idx) (q : d.contr.Idx), (d.rhsIdx i q 1).val = (i 1).val)
    (l : (⟨2, ![A, K]⟩ : Shape).Idx → EReal) (r : (⟨2, ![K, M]⟩ : Shape).Idx → EReal) (p : Fin A) (j : Fin M) :
    ∑ q : d.contr.Idx, l (d.lhsIdx (ix2 p j) q) * r (d.rhsIdx (ix2 p j) q) = ∑ k : Fin K, l (ix2 p k) * r (ix2 k j) := by
  rw [← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

end Cert.DotSum

end
-- ==== Proof.EgoKernel.lean ====
/-
  The body of the first kernel read at one entry. Its two stored values, at row p of the block, depend only on row p of the
  block of x: the first is the normalised row h0 (a dense layer, a rectifier, a layer normalisation spelt with rsqrt),
  the second the product of that row with Wlinᵀ. The matrix unit's product into a zero accumulator is, on the extended reals,
  the sum over the contracted index; a lane reduction is the sum of a row.
-/
import proofs.«123778_j26439818674288_2_alg».proof.Proof.Gen.KernelIdeal.Skeleton
import proofs.«123778_j26439818674288_2_alg».proof.Proof.EgoSpec
import proofs.«123778_j26439818674288_2_alg».proof.Proof.LibColumns
import proofs.«123778_j26439818674288_2_alg».proof.Proof.LibDotSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Ego

open Idealize.ShloMosaic Idealize.ShloMosaic.ValueIdx Cert.KernelIdeal Cert.KernelIdeal.Gen

theorem rsqrt_apply {s : Shape} {φ : FTy} (a : FVec Ideal s φ) (i : s.Idx) : rsqrt a i = Ideal.rsqrt (a i) := rfl

/-- The first product of the body at the entry (p, q). -/
theorem matmul_w1_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  show FloatOps.matmul dot_S5000x128_S128x128_S5000x128_1_0_0_1_n_n none l r (constant S5000x128 .f32 0x00000000#32) (ix2 p q) = _
  rw [Ideal.matmul_constant_zero_apply]
  refine Cert.DotSum.contr_sum dot_S5000x128_S128x128_S5000x128_1_0_0_1_n_n rfl rfl ?_ ?_ ?_ ?_ l r p q
  · intro i c
    unfold DotDims.lhsIdx
    rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
    rfl
  · exact fun i c => dot_S5000x128_S128x128_S5000x128_1_0_0_1_n_n.lhsIdx_val_of_single rfl i c
  · exact fun i c => dot_S5000x128_S128x128_S5000x128_1_0_0_1_n_n.rhsIdx_val_of_single rfl i c
  · intro i c
    unfold DotDims.rhsIdx
    rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
    rfl

/-- The second product of the body at the entry (p, j). -/
theorem matmul_wlin_apply (l : FVec Ideal S5000x128 .bf16) (r : FVec Ideal S128x64 .bf16) (p : Fin 5000) (j : Fin 64) :
    matmul dot_S5000x128_S128x64_S5000x64_1_0_0_1_n_n none l r (constant S5000x64 .f32 0x00000000#32) (ix2 p j)
      = ∑ k : Fin 128, l (ix2 p k) * r (ix2 k j) := by
  show FloatOps.matmul dot_S5000x128_S128x64_S5000x64_1_0_0_1_n_n none l r (constant S5000x64 .f32 0x00000000#32) (ix2 p j) = _
  rw [Ideal.matmul_constant_zero_apply]
  refine Cert.DotSum.contr_sum dot_S5000x128_S128x64_S5000x64_1_0_0_1_n_n rfl rfl ?_ ?_ ?_ ?_ l r p j
  · intro i c
    unfold DotDims.lhsIdx
    rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
    rfl
  · exact fun i c => dot_S5000x128_S128x64_S5000x64_1_0_0_1_n_n.lhsIdx_val_of_single rfl i c
  · exact fun i c => dot_S5000x128_S128x64_S5000x64_1_0_0_1_n_n.rhsIdx_val_of_single rfl i c
  · intro i c
    unfold DotDims.rhsIdx
    rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
    rfl

/-- A lane reduction by addition along the rows of a 5000 × 128 block: the sum of the row. -/
theorem rowsum_apply (src : FVec Ideal S5000x128 .f32) (p : Fin 5000) :
    multiReduction .add [1] S5000 src 0x00000000#32 reduces_S5000x128_S5000 (.inl rfl) rfl (ix1 p) = ∑ k : Fin 128, src (ix2 p k) :=
  Cert.LibColumns.multiReduction_rows src reduces_S5000x128_S5000 (.inl rfl) rfl p

/-- The first stored value at row p: the normalised row, from row p of the block of x, W1ᵀ and the three one-row matrices. -/
theorem pay2_apply (v0 : Vec Ideal S5000x128 .f32) (v2 : Vec Ideal S128x128 .f32) (v6 v12 v14 : Vec Ideal S1x128 .f32)
    (p : Fin 5000) (q : Fin 128) :
    k0_pay2 (F := Ideal) v0 v2 v6 v12 v14 (ix2 p q)
      = h0Row Cert.LN.lnK (fun k => v0 (ix2 p k)) (fun q k => v2 (ix2 k q)) (fun q => v6 (ix2 0 q))
          (fun q => v12 (ix2 0 q)) (fun q => v14 (ix2 0 q)) q := by
  unfold k0_pay2
  simp only [addf_apply, subf_apply, mulf_apply, divf_apply, maximumf_apply, broadcast_apply, truncf_apply, rsqrt_apply,
    shapeCast_self, matmul_w1_apply, matmul_wlin_apply, Cert.LibColumns.shapeCast_vec_col,
    Cert.LibColumns.broadcastTo_col, broadcastTo_1b_ab_apply]
  rw [rowsum_apply]
  simp only [addf_apply, subf_apply, mulf_apply, divf_apply, maximumf_apply, broadcast_apply, truncf_apply, rsqrt_apply,
    shapeCast_self, matmul_w1_apply, matmul_wlin_apply, Cert.LibColumns.shapeCast_vec_col,
    Cert.LibColumns.broadcastTo_col, broadcastTo_1b_ab_apply]
  rw [rowsum_apply]
  simp only [addf_apply, subf_apply, mulf_apply, divf_apply, maximumf_apply, broadcast_apply, truncf_apply, rsqrt_apply,
    shapeCast_self, matmul_w1_apply, matmul_wlin_apply, Cert.LibColumns.shapeCast_vec_col,
    Cert.LibColumns.broadcastTo_col, broadcastTo_1b_ab_apply]
  rw [rowsum_apply]
  simp only [addf_apply, subf_apply, mulf_apply, divf_apply, maximumf_apply, broadcast_apply, truncf_apply, rsqrt_apply,
    shapeCast_self, matmul_w1_apply, matmul_wlin_apply, Cert.LibColumns.shapeCast_vec_col,
    Cert.LibColumns.broadcastTo_col, broadcastTo_1b_ab_apply]
  rfl

/-- The second stored value at row p: the product of a row with Wlinᵀ. -/
theorem pay1_apply (v37 : FVec Ideal S5000x128 .f32) (v40 : Vec Ideal S128x64 .f32) (p : Fin 5000) (j : Fin 64) :
    k0_pay1 (F := Ideal) v37 v40 (ix2 p j) = hRow (fun k => v37 (ix2 p k)) (fun j k => v40 (ix2 k j)) j := by
  unfold k0_pay1
  simp only [addf_apply, subf_apply, mulf_apply, divf_apply, maximumf_apply, broadcast_apply, truncf_apply, rsqrt_apply,
    shapeCast_self, matmul_w1_apply, matmul_wlin_apply, Cert.LibColumns.shapeCast_vec_col,
    Cert.LibColumns.broadcastTo_col, broadcastTo_1b_ab_apply]
  rfl

end Cert.Ego

end
-- ==== Proof.EgoBlocks.lean ====
/-
  From the blocks the first kernel writes to its two whole result arrays.

  The kernel runs over a grid of 10 points. At point t it reads rows 5000·t … 5000·t + 4999 of the feature array x, the
  weight matrices and the three one-row matrices whole, and writes rows 5000·t … 5000·t + 4999 of both results: the
  normalised rows (50000 × 128) and their product with the second weight matrix (50000 × 64). Entry (p, q) of what the
  body stores depends on row p of its block of x only, so the block written at point t is the block at t of ONE function
  of the arrays as the region finds them: row i of the first result is the normalised row of row i of x, row i of the
  second is the second dense layer applied to it. The 10 blocks tile each result (row i lies in the block of point
  i / 5000), so the arrays end holding those functions.
-/
import proofs.«123778_j26439818674288_2_alg».proof.Proof.Gen.KernelIdeal.Frame
import proofs.«123778_j26439818674288_2_alg».proof.Proof.EgoKernel
import Idealize.ShloMosaic.Lib.Pipeline.Value

noncomputable section

open scoped BigOperators

namespace Cert.Ego

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The first result: row `i` is the normalised row of row `i` of x. -/
def h0Arr (c : Dev nD) : S50000x128.Idx → EReal := fun i =>
  h0Row Cert.LN.lnK (fun k => V c main_arg0 (ix2 (i 0) k)) (fun q k => V c main_v0 (ix2 k q)) (fun q => V c main_v2 (ix2 0 q))
    (fun q => V c main_v3 (ix2 0 q)) (fun q => V c main_v4 (ix2 0 q)) (i 1)

/-- The second result: row `i` is the second dense layer applied to row `i` of the first. -/
def hArr (c : Dev nD) : S50000x64.Idx → EReal := fun i =>
  hRow (fun k => h0Row Cert.LN.lnK (fun k' => V c main_arg0 (ix2 (i 0) k')) (fun q k' => V c main_v0 (ix2 k' q))
      (fun q => V c main_v2 (ix2 0 q)) (fun q => V c main_v3 (ix2 0 q)) (fun q => V c main_v4 (ix2 0 q)) k)
    (fun j k => V c main_v1 (ix2 k j)) (i 1)

/-- The normalised row depends on its arguments only through their values. -/
theorem h0Row_congr {ln : (Fin 128 → EReal) → (Fin 128 → EReal) → (Fin 128 → EReal) → Fin 128 → EReal}
    {x x' : Fin 128 → EReal} {W W' : Fin 128 → Fin 128 → EReal} {b b' g g' s s' : Fin 128 → EReal} {q q' : Fin 128}
    (e0 : ∀ k, x k = x' k) (e1 : ∀ q k, W q k = W' q k) (e2 : ∀ k, b k = b' k) (e3 : ∀ k, g k = g' k) (e4 : ∀ k, s k = s' k)
    (e5 : q = q') : h0Row ln x W b g s q = h0Row ln x' W' b' g' s' q' := by
  obtain rfl : x = x' := funext e0
  obtain rfl : W = W' := funext fun q => funext (e1 q)
  obtain rfl : b = b' := funext e2
  obtain rfl : g = g' := funext e3
  obtain rfl : s = s' := funext e4
  rw [e5]

/-- So does the second dense layer. -/
theorem hRow_congr {h h' : Fin 128 → EReal} {W W' : Fin 64 → Fin 128 → EReal} {j j' : Fin 64}
    (e0 : ∀ k, h k = h' k) (e1 : ∀ j k, W j k = W' j k) (e2 : j = j') : hRow h W j = hRow h' W' j' := by
  obtain rfl : h = h' := funext e0
  obtain rfl : W = W' := funext fun j => funext (e1 j)
  rw [e2]

/-- The printed index maps at a point: the window over x and the two result windows move together, one block of rows per
    point; the other windows stay at block (0, 0). -/
structure IdxFacts (t : Fin cfg0.N) : Prop where
  w00 : win0_0.index t (0 : Fin 2) = t.val
  w01 : win0_0.index t (1 : Fin 2) = 0
  w10 : win0_1.index t (0 : Fin 2) = 0
  w11 : win0_1.index t (1 : Fin 2) = 0
  w20 : win0_2.index t (0 : Fin 2) = 0
  w21 : win0_2.index t (1 : Fin 2) = 0
  w30 : win0_3.index t (0 : Fin 2) = 0
  w31 : win0_3.index t (1 : Fin 2) = 0
  w40 : win0_4.index t (0 : Fin 2) = 0
  w41 : win0_4.index t (1 : Fin 2) = 0
  w50 : win0_5.index t (0 : Fin 2) = 0
  w51 : win0_5.index t (1 : Fin 2) = 0
  w60 : win0_6.index t (0 : Fin 2) = t.val
  w61 : win0_6.index t (1 : Fin 2) = 0
  w70 : win0_7.index t (0 : Fin 2) = t.val
  w71 : win0_7.index t (1 : Fin 2) = 0

/-- They are decided over the ten points. -/
theorem idx_facts (t : Fin cfg0.N) : IdxFacts t := by
  have h : ∀ t : Fin cfg0.N, win0_0.index t (0 : Fin 2) = t.val ∧ win0_0.index t (1 : Fin 2) = 0
      ∧ win0_1.index t (0 : Fin 2) = 0 ∧ win0_1.index t (1 : Fin 2) = 0
      ∧ win0_2.index t (0 : Fin 2) = 0 ∧ win0_2.index t (1 : Fin 2) = 0
      ∧ win0_3.index t (0 : Fin 2) = 0 ∧ win0_3.index t (1 : Fin 2) = 0
      ∧ win0_4.index t (0 : Fin 2) = 0 ∧ win0_4.index t (1 : Fin 2) = 0
      ∧ win0_5.index t (0 : Fin 2) = 0 ∧ win0_5.index t (1 : Fin 2) = 0
      ∧ win0_6.index t (0 : Fin 2) = t.val ∧ win0_6.index t (1 : Fin 2) = 0
      ∧ win0_7.index t (0 : Fin 2) = t.val ∧ win0_7.index t (1 : Fin 2) = 0 :=
    (by decide +kernel : ∀ t : Fin grid0.N, _)
  obtain ⟨a0, a1, a2, a3, a4, a5, a6, a7, a8, a9, a10, a11, a12, a13, a14, a15⟩ := h t
  exact ⟨a0, a1, a2, a3, a4, a5, a6, a7, a8, a9, a10, a11, a12, a13, a14, a15⟩

/-- Entry `x` of the block of x at point `t` is entry `i` of the array, when `i` is row `5000·t + x 0`, column `x 1`. -/
theorem iblk_0_apply (c : Dev nD) (t : Fin cfg0.N) (x : S5000x128.Idx) (i : S50000x128.Idx)
    (h0 : (i 0).val = t.val * 5000 + (x 0).val) (h1 : (i 1).val = (x 1).val) :
    (iblk0 V c 0 t : Vec Ideal S5000x128 .f32) x = V c main_arg0 i := by
  have e := idx_facts t
  unfold iblk0
  rw [View.read_apply]
  show V c main_arg0 _ = V c main_arg0 _
  refine congrArg _ (funext fun a => Fin.ext ?_)
  match a with
  | ⟨0, _⟩ => show win0_0.index t (0 : Fin 2) * 5000 + 1 * (x 0).val = (i 0).val; rw [e.w00, h0]; omega
  | ⟨1, _⟩ => show win0_0.index t (1 : Fin 2) * 128 + 1 * (x 1).val = (i 1).val; rw [e.w01, h1]; omega

/-- The first weight matrix: its block at every point is its whole array. -/
theorem iblk_1_apply (c : Dev nD) (t : Fin cfg0.N) (x : S128x128.Idx) :
    (iblk0 V c 1 t : Vec Ideal S128x128 .f32) x = V c main_v0 x := by
  have e := idx_facts t
  unfold iblk0
  rw [View.read_apply]
  show V c main_v0 _ = V c main_v0 _
  refine congrArg _ (funext fun a => Fin.ext ?_)
  match a with
  | ⟨0, _⟩ => show win0_1.index t (0 : Fin 2) * 128 + 1 * (x 0).val = (x 0).val; rw [e.w10]; omega
  | ⟨1, _⟩ => show win0_1.index t (1 : Fin 2) * 128 + 1 * (x 1).val = (x 1).val; rw [e.w11]; omega

/-- The bias row: its block at every point is its whole array. -/
theorem iblk_2_apply (c : Dev nD) (t : Fin cfg0.N) (x : S1x128.Idx) :
    (iblk0 V c 2 t : Vec Ideal S1x128 .f32) x = V c main_v2 x := by
  have e := idx_facts t
  unfold iblk0
  rw [View.read_apply]
  show V c main_v2 _ = V c main_v2 _
  refine congrArg _ (funext fun a => Fin.ext ?_)
  match a with
  | ⟨0, _⟩ => show win0_2.index t (0 : Fin 2) * 1 + 1 * (x 0).val = (x 0).val; rw [e.w20]; omega
  | ⟨1, _⟩ => show win0_2.index t (1 : Fin 2) * 128 + 1 * (x 1).val = (x 1).val; rw [e.w21]; omega

/-- The scale row: its block at every point is its whole array. -/
theorem iblk_3_apply (c : Dev nD) (t : Fin cfg0.N) (x : S1x128.Idx) :
    (iblk0 V c 3 t : Vec Ideal S1x128 .f32) x = V c main_v3 x := by
  have e := idx_facts t
  unfold iblk0
  rw [View.read_apply]
  show V c main_v3 _ = V c main_v3 _
  refine congrArg _ (funext fun a => Fin.ext ?_)
  match a with
  | ⟨0, _⟩ => show win0_3.index t (0 : Fin 2) * 1 + 1 * (x 0).val = (x 0).val; rw [e.w30]; omega
  | ⟨1, _⟩ => show win0_3.index t (1 : Fin 2) * 128 + 1 * (x 1).val = (x 1).val; rw [e.w31]; omega

/-- The shift row: its block at every point is its whole array. -/
theorem iblk_4_apply (c : Dev nD) (t : Fin cfg0.N) (x : S1x128.Idx) :
    (iblk0 V c 4 t : Vec Ideal S1x128 .f32) x = V c main_v4 x := by
  have e := idx_facts t
  unfold iblk0
  rw [View.read_apply]
  show V c main_v4 _ = V c main_v4 _
  refine congrArg _ (funext fun a => Fin.ext ?_)
  match a with
  | ⟨0, _⟩ => show win0_4.index t (0 : Fin 2) * 1 + 1 * (x 0).val = (x 0).val; rw [e.w40]; omega
  | ⟨1, _⟩ => show win0_4.index t (1 : Fin 2) * 128 + 1 * (x 1).val = (x 1).val; rw [e.w41]; omega

/-- The second weight matrix: its block at every point is its whole array. -/
theorem iblk_5_apply (c : Dev nD) (t : Fin cfg0.N) (x : S128x64.Idx) :
    (iblk0 V c 5 t : Vec Ideal S128x64 .f32) x = V c main_v1 x := by
  have e := idx_facts t
  unfold iblk0
  rw [View.read_apply]
  show V c main_v1 _ = V c main_v1 _
  refine congrArg _ (funext fun a => Fin.ext ?_)
  match a with
  | ⟨0, _⟩ => show win0_5.index t (0 : Fin 2) * 128 + 1 * (x 0).val = (x 0).val; rw [e.w50]; omega
  | ⟨1, _⟩ => show win0_5.index t (1 : Fin 2) * 64 + 1 * (x 1).val = (x 1).val; rw [e.w51]; omega

/-- The normalised row read off the blocks at point `t`, row `p` of the block, is the normalised row of row `n` of x when
    `n = 5000·t + p`. -/
theorem pay2_blocks (c : Dev nD) (t : Fin cfg0.N) (p : Fin 5000) (q : Fin 128) (n : Fin 50000) (hn : n.val = t.val * 5000 + p.val) :
    k0_pay2 (F := Ideal) (iblk0 V c 0 t) (iblk0 V c 1 t) (iblk0 V c 2 t) (iblk0 V c 3 t) (iblk0 V c 4 t) (ix2 p q)
      = h0Row Cert.LN.lnK (fun k => V c main_arg0 (ix2 n k)) (fun q k => V c main_v0 (ix2 k q)) (fun q => V c main_v2 (ix2 0 q))
          (fun q => V c main_v3 (ix2 0 q)) (fun q => V c main_v4 (ix2 0 q)) q := by
  refine (pay2_apply (iblk0 V c 0 t) (iblk0 V c 1 t) (iblk0 V c 2 t) (iblk0 V c 3 t) (iblk0 V c 4 t) p q).trans ?_
  refine h0Row_congr (fun k => ?_) (fun q k => ?_) (fun k => ?_) (fun k => ?_) (fun k => ?_) rfl
  · exact iblk_0_apply V c t (ix2 p k) (ix2 n k) hn rfl
  · exact iblk_1_apply V c t (ix2 k q)
  · exact iblk_2_apply V c t (ix2 0 k)
  · exact iblk_3_apply V c t (ix2 0 k)
  · exact iblk_4_apply V c t (ix2 0 k)

/-- WHAT POINT `t` WRITES BACK to the first result is block `t` of the normalised rows. -/
theorem flushed6_eq (c : Dev nD) (t : Fin cfg0.N) :
    (dat0 V c).flushed 6 t = ((cfg0.win 6).blk t).view.read (Elt Ideal) (h0Arr V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S1x128) hz]
  have e := idx_facts t
  funext j
  obtain ⟨p, q, rfl⟩ : ∃ (p : Fin 5000) (q : Fin 128), j = ix2 p q := ⟨j 0, j 1, eq_ix2 j⟩
  show k0_pay2 (F := Ideal) (iblk0 V c 0 t) (iblk0 V c 1 t) (iblk0 V c 2 t) (iblk0 V c 3 t) (iblk0 V c 4 t) (ix2 p q)
    = h0Arr V c (((cfg0.win 6).blk t).view.emb (ix2 p q))
  have hi0 : ((((cfg0.win 6).blk t).view.emb (ix2 p q)) 0).val = t.val * 5000 + p.val := by
    show win0_6.index t (0 : Fin 2) * 5000 + 1 * p.val = _
    rw [e.w60]; omega
  have hi1 : ((((cfg0.win 6).blk t).view.emb (ix2 p q)) 1).val = q.val := by
    show win0_6.index t (1 : Fin 2) * 128 + 1 * q.val = _
    rw [e.w61]; omega
  unfold h0Arr
  refine (pay2_blocks V c t p q _ hi0).trans ?_
  exact h0Row_congr (fun _ => rfl) (fun _ _ => rfl) (fun _ => rfl) (fun _ => rfl) (fun _ => rfl) (Fin.ext hi1.symm)

/-- WHAT POINT `t` WRITES BACK to the second result is block `t` of the second dense layer of the normalised rows. -/
theorem flushed7_eq (c : Dev nD) (t : Fin cfg0.N) :
    (dat0 V c).flushed 7 t = ((cfg0.win 7).blk t).view.read (Elt Ideal) (hArr V c) := by
  show (cfg0.win 7).cut (grid0.coords t) ((dat0 V c).after 7 t) = _
  rw [after0_7]
  unfold out0_7
  rw [View.canon_unit_zero hz]
  simp only [View.ld_unit_zero (S := S5000x128) hz, View.ld_unit_zero (S := S128x128) hz, View.ld_unit_zero (S := S1x128) hz,
    View.ld_unit_zero (S := S128x64) hz]
  have e := idx_facts t
  funext j
  obtain ⟨p, q, rfl⟩ : ∃ (p : Fin 5000) (q : Fin 64), j = ix2 p q := ⟨j 0, j 1, eq_ix2 j⟩
  show k0_pay1 (F := Ideal) (k0_pay2 (F := Ideal) (iblk0 V c 0 t) (iblk0 V c 1 t) (iblk0 V c 2 t) (iblk0 V c 3 t) (iblk0 V c 4 t)) (iblk0 V c 5 t) (ix2 p q)
    = hArr V c (((cfg0.win 7).blk t).view.emb (ix2 p q))
  have hi0 : ((((cfg0.win 7).blk t).view.emb (ix2 p q)) 0).val = t.val * 5000 + p.val := by
    show win0_7.index t (0 : Fin 2) * 5000 + 1 * p.val = _
    rw [e.w70]; omega
  have hi1 : ((((cfg0.win 7).blk t).view.emb (ix2 p q)) 1).val = q.val := by
    show win0_7.index t (1 : Fin 2) * 64 + 1 * q.val = _
    rw [e.w71]; omega
  refine (pay1_apply (k0_pay2 (F := Ideal) (iblk0 V c 0 t) (iblk0 V c 1 t) (iblk0 V c 2 t) (iblk0 V c 3 t) (iblk0 V c 4 t)) (iblk0 V c 5 t) p q).trans ?_
  unfold hArr
  refine hRow_congr (fun k => ?_) (fun j k => ?_) (Fin.ext hi1.symm)
  · exact pay2_blocks V c t p k _ hi0
  · exact iblk_5_apply V c t (ix2 k j)

/-- An index of the first result is in point `t`'s block iff each coordinate is in the block's range on its axis. -/
theorem mem_blk6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v5_0).slice (win0_6.rect t)).set ↔ _
  rw [View.set_slice_whole, Rect.mem_set_unit]
  exact Iff.rfl

/-- The same for the second result. -/
theorem mem_blk7 (t : Fin cfg0.N) (i : S50000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v5_1).slice (win0_7.rect t)).set ↔ _
  rw [View.set_slice_whole, Rect.mem_set_unit]
  exact Iff.rfl

/-- Every row of the first result lies in the block of the point `row / 5000`. -/
theorem cover6 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  have e := idx_facts t
  have ht : t.val = (i 0).val / 5000 := rfl
  refine ⟨t, flush0_6 t, ?_⟩
  rw [mem_blk6]
  intro a
  match a with
  | ⟨0, _⟩ => show win0_6.index t (0 : Fin 2) * 5000 ≤ (i 0).val ∧ (i 0).val < win0_6.index t (0 : Fin 2) * 5000 + 5000; rw [e.w60, ht]; omega
  | ⟨1, _⟩ => show win0_6.index t (1 : Fin 2) * 128 ≤ (i 1).val ∧ (i 1).val < win0_6.index t (1 : Fin 2) * 128 + 128; rw [e.w61]; omega

/-- Every row of the second result lies in the block of the point `row / 5000`. -/
theorem cover7 (i : S50000x64.Idx) : ∃ t : Fin cfg0.N, (cfg0.win 7).flush t = true ∧ i ∈ ((cfg0.win 7).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  have e := idx_facts t
  have ht : t.val = (i 0).val / 5000 := rfl
  refine ⟨t, flush0_7 t, ?_⟩
  rw [mem_blk7]
  intro a
  match a with
  | ⟨0, _⟩ => show win0_7.index t (0 : Fin 2) * 5000 ≤ (i 0).val ∧ (i 0).val < win0_7.index t (0 : Fin 2) * 5000 + 5000; rw [e.w70, ht]; omega
  | ⟨1, _⟩ => show win0_7.index t (1 : Fin 2) * 64 ≤ (i 1).val ∧ (i 1).val < win0_7.index t (1 : Fin 2) * 64 + 64; rw [e.w71]; omega

/-- THE FIRST RESULT after the region: row `i` is the normalised row of row `i` of x. -/
theorem region0_final6 (c : Dev nD) :
    (dat0 (F := Ideal) V c).arrAt 6 cfg0.N
      = fun i => h0Row Cert.LN.lnK (fun k => V c main_arg0 (ix2 (i 0) k)) (fun q k => V c main_v0 (ix2 k q)) (fun q => V c main_v2 (ix2 0 q))
          (fun q => V c main_v3 (ix2 0 q)) (fun q => V c main_v4 (ix2 0 q)) (i 1) :=
  (dat0 V c).arrAt_eq_of_cover 6 (h0Arr V c) (fun t _ => flushed6_eq V c t) cover6

/-- THE SECOND RESULT after the region: row `i` is the second dense layer applied to the normalised row of row `i` of x. -/
theorem region0_final7 (c : Dev nD) :
    (dat0 (F := Ideal) V c).arrAt 7 cfg0.N
      = fun i => hRow (fun k => h0Row Cert.LN.lnK (fun k' => V c main_arg0 (ix2 (i 0) k')) (fun q k' => V c main_v0 (ix2 k' q))
            (fun q => V c main_v2 (ix2 0 q)) (fun q => V c main_v3 (ix2 0 q)) (fun q => V c main_v4 (ix2 0 q)) k)
          (fun j k => V c main_v1 (ix2 k j)) (i 1) :=
  (dat0 V c).arrAt_eq_of_cover 7 (hArr V c) (fun t _ => flushed7_eq V c t) cover7

end Cert.Ego

end
-- ==== Proof.EgoRef.lean ====
/-
  The reference's first stage, read at one entry.

  The reference computes the first stage for all 50000 rows at once: the dense layer `x · W1ᵀ + b1` (the transpose of the
  weight matrix is taken first and read back, so the weight matrix appears untransposed), the rectifier, and a layer
  normalisation spelt with reductions and one-column matrices: the row sums started from zero, divided by 128, repeated
  over the row; the centred squares, their row sums, divided by 128; ε added, the square root, the quotient; the scale and
  the shift repeated over the rows. Entry (p, q) of the result is entry q of the normalised row (the quotient spelling of
  the layer normalisation) of row p of x. Then the second dense layer: a product with the transpose of the second weight
  matrix, again read back. The only law used is `0 + x = x` for the sums' initial zero.
-/
import proofs.«123778_j26439818674288_2_alg».proof.Proof.Gen.ReferenceIdeal.Read
import proofs.«123778_j26439818674288_2_alg».proof.Proof.EgoSpec

noncomputable section

open scoped BigOperators

namespace Cert.Ego

open Idealize.ShloMosaic Idealize.ShloMosaic.ValueIdx Cert.ReferenceIdeal Cert.ReferenceIdeal.Gen Cert.ReferenceIdeal.Read

variable (x0 : (⟨S50000x128, .f32⟩ : BufTy).Contents (Elt Ideal)) (x2 : (⟨S128x128, .f32⟩ : BufTy).Contents (Elt Ideal))
  (x3 x4 x5 : (⟨S128, .f32⟩ : BufTy).Contents (Elt Ideal)) (x6 : (⟨S64x128, .f32⟩ : BufTy).Contents (Elt Ideal))

/-- Row `p` after the dense layer and the rectifier, as the reference's arguments give it. -/
def zRef (p : Fin 50000) : Fin 128 → EReal :=
  zRow (fun k => x0 (ix2 p k)) (fun q k => x2 (ix2 q k)) (fun q => x3 (ix1 q))

/-- The rectified dense layer at (p, q). -/
theorem z_ref (p : Fin 50000) (q : Fin 128) : val_main_v5 (F := Ideal) x0 x2 x3 (ix2 p q) = zRef x0 x2 x3 p q := by
  have el : ∀ k : Fin 128, lidx_main_v1 (ix2 p q) k = ix2 p k := fun k =>
    funext fun a => Fin.ext (by match a with | ⟨0, _⟩ => rfl | ⟨1, _⟩ => rfl)
  have er : ∀ k : Fin 128, idx_main_v0 (ridx_main_v1 (ix2 p q) k) = ix2 q k := fun k =>
    funext fun a => Fin.ext (by match a with | ⟨0, _⟩ => rfl | ⟨1, _⟩ => rfl)
  have eb : idx_main_v2 (idx_main_v3 (ix2 p q)) = ix1 q :=
    funext fun a => Fin.ext (by match a with | ⟨0, _⟩ => rfl)
  have hs : (∑ k : Fin 128, x0 (lidx_main_v1 (ix2 p q) k) * val_main_v0 (F := Ideal) x2 (ridx_main_v1 (ix2 p q) k))
      = ∑ k : Fin 128, x0 (ix2 p k) * x2 (ix2 q k) :=
    Finset.sum_congr rfl fun k _ => by rw [val_main_v0_apply, el k, er k]
  rw [val_main_v5_apply, val_main_v4_apply, val_main_v1_apply, val_main_v3_apply, val_main_v2_apply, val_main_call0_v0_apply,
    val_main_call0_cst_apply, hs, eb]
  rfl

/-- The row means, as a one-column matrix: entry (p, 0) is the mean of row p. -/
theorem mean_ref (p : Fin 50000) : val_main_v9 (F := Ideal) x0 x2 x3 (ix2 p 0) = Cert.LN.mean (zRef x0 x2 x3 p) := by
  have e : idx_main_v7 (ix2 p (0 : Fin 1)) = ix1 p := funext fun a => Fin.ext (by match a with | ⟨0, _⟩ => rfl)
  have ek : ∀ k : Fin 128, idx_main_v6 (ix1 p) k = ix2 p k := fun k =>
    funext fun a => Fin.ext (by match a with | ⟨0, _⟩ => rfl | ⟨1, _⟩ => rfl)
  have hs : (∑ k : Fin 128, val_main_v5 (F := Ideal) x0 x2 x3 (idx_main_v6 (ix1 p) k)) = ∑ k : Fin 128, zRef x0 x2 x3 p k :=
    Finset.sum_congr rfl fun k _ => by rw [ek k, z_ref]
  rw [val_main_v9_apply, val_main_v7_apply, val_main_v8_apply, val_main_cst_0_apply, e, val_main_v6_apply, val_main_cst_apply, hs]
  simp only [Ideal.hostDivf_def, Ideal.ofBits_def, Ideal.ofBits_zero_f32, zero_add]
  rfl

/-- The row variances, as a one-column matrix: entry (p, 0) is the variance of row p. -/
theorem var_ref (p : Fin 50000) : val_main_v16 (F := Ideal) x0 x2 x3 (ix2 p 0) = Cert.LN.var (zRef x0 x2 x3 p) := by
  have e : idx_main_v14 (ix2 p (0 : Fin 1)) = ix1 p := funext fun a => Fin.ext (by match a with | ⟨0, _⟩ => rfl)
  have ek : ∀ k : Fin 128, idx_main_v13 (ix1 p) k = ix2 p k := fun k =>
    funext fun a => Fin.ext (by match a with | ⟨0, _⟩ => rfl | ⟨1, _⟩ => rfl)
  have em : ∀ k : Fin 128, idx_main_v10 (ix2 p k) = ix2 p (0 : Fin 1) := fun k =>
    funext fun a => Fin.ext (by match a with | ⟨0, _⟩ => rfl | ⟨1, _⟩ => rfl)
  have hs : (∑ k : Fin 128, val_main_v12 (F := Ideal) x0 x2 x3 (idx_main_v13 (ix1 p) k))
      = ∑ k : Fin 128, (zRef x0 x2 x3 p k - Cert.LN.mean (zRef x0 x2 x3 p)) * (zRef x0 x2 x3 p k - Cert.LN.mean (zRef x0 x2 x3 p)) :=
    Finset.sum_congr rfl fun k _ => by
      rw [ek k, val_main_v12_apply, val_main_v11_apply, val_main_v10_apply, em k, mean_ref, z_ref]
      rfl
  rw [val_main_v16_apply, val_main_v14_apply, val_main_v15_apply, val_main_cst_2_apply, e, val_main_v13_apply, val_main_cst_1_apply, hs]
  simp only [Ideal.hostDivf_def, Ideal.ofBits_def, Ideal.ofBits_zero_f32, zero_add]
  rfl

/-- THE REFERENCE'S NORMALISED ROWS: row `i` is the normalised row, in the quotient spelling, of row `i` of x. -/
theorem ref_h0 :
    val_main_v29 (F := Ideal) x0 x2 x3 x4 x5
      = fun i => h0Row Cert.LN.lnR (fun k => x0 (ix2 (i 0) k)) (fun q k => x2 (ix2 q k)) (fun q => x3 (ix1 q))
          (fun q => x4 (ix1 q)) (fun q => x5 (ix1 q)) (i 1) := by
  funext i
  obtain ⟨p, q, rfl⟩ : ∃ (p : Fin 50000) (q : Fin 128), i = ix2 p q := ⟨i 0, i 1, eq_ix2 i⟩
  show val_main_v29 (F := Ideal) x0 x2 x3 x4 x5 (ix2 p q)
    = h0Row Cert.LN.lnR (fun k => x0 (ix2 p k)) (fun q k => x2 (ix2 q k)) (fun q => x3 (ix1 q)) (fun q => x4 (ix1 q)) (fun q => x5 (ix1 q)) q
  have em : idx_main_v17 (ix2 p q) = ix2 p (0 : Fin 1) :=
    funext fun a => Fin.ext (by match a with | ⟨0, _⟩ => rfl | ⟨1, _⟩ => rfl)
  have es : idx_main_v22 (ix2 p q) = ix2 p (0 : Fin 1) :=
    funext fun a => Fin.ext (by match a with | ⟨0, _⟩ => rfl | ⟨1, _⟩ => rfl)
  have eg : idx_main_v24 (idx_main_v25 (ix2 p q)) = ix1 q := funext fun a => Fin.ext (by match a with | ⟨0, _⟩ => rfl)
  have eb : idx_main_v27 (idx_main_v28 (ix2 p q)) = ix1 q := funext fun a => Fin.ext (by match a with | ⟨0, _⟩ => rfl)
  rw [val_main_v29_apply, val_main_v26_apply, val_main_v23_apply, val_main_v18_apply, val_main_v17_apply, em, mean_ref, z_ref,
    val_main_v22_apply, es, val_main_v21_apply, val_main_v20_apply, var_ref, val_main_v19_apply, val_main_cst_3_apply,
    val_main_v25_apply, val_main_v24_apply, eg, val_main_v28_apply, val_main_v27_apply, eb]
  rfl

/-- THE REFERENCE'S SECOND DENSE LAYER: row `i` is the second dense layer applied to row `i` of the normalised rows. -/
theorem ref_h :
    val_main_v31 (F := Ideal) x0 x2 x3 x4 x5 x6
      = fun i => hRow (fun k => val_main_v29 (F := Ideal) x0 x2 x3 x4 x5 (ix2 (i 0) k)) (fun j k => x6 (ix2 j k)) (i 1) := by
  funext i
  obtain ⟨p, j, rfl⟩ : ∃ (p : Fin 50000) (j : Fin 64), i = ix2 p j := ⟨i 0, i 1, eq_ix2 i⟩
  show val_main_v31 (F := Ideal) x0 x2 x3 x4 x5 x6 (ix2 p j)
    = hRow (fun k => val_main_v29 (F := Ideal) x0 x2 x3 x4 x5 (ix2 p k)) (fun j k => x6 (ix2 j k)) j
  have el : ∀ k : Fin 128, lidx_main_v31 (ix2 p j) k = ix2 p k := fun k =>
    funext fun a => Fin.ext (by match a with | ⟨0, _⟩ => rfl | ⟨1, _⟩ => rfl)
  have er : ∀ k : Fin 128, idx_main_v30 (ridx_main_v31 (ix2 p j) k) = ix2 j k := fun k =>
    funext fun a => Fin.ext (by match a with | ⟨0, _⟩ => rfl | ⟨1, _⟩ => rfl)
  rw [val_main_v31_apply]
  unfold hRow
  exact Finset.sum_congr rfl fun k _ => by rw [val_main_v30_apply, el k, er k]

end Cert.Ego

end
-- ==== Proof.StageEgo.lean ====
/-
  The first stage of the kernel's run against the reference's first stage.

  Before the first region the host transposes the two weight matrices and re-lays the bias, the gain and the offset
  of the first normalisation as one-row matrices; the region then leaves, in its two output arrays, the normalised
  rectified dense layer of each row of the input and the second dense layer of that.  Read back through those host
  operations — a transposed matrix at (k, q) is the matrix at (q, k), a vector re-laid as one row at (0, q) is the
  vector at q — and with the two spellings of the normalisation identified, the two arrays are the reference's
  stages of the same names, as functions of the launch contents of the arguments.  The arguments no host operation
  and no window of the first region writes are still as launched after it.
-/
import proofs.«123778_j26439818674288_2_alg».proof.Proof.Gen.KernelIdeal.Frame
import proofs.«123778_j26439818674288_2_alg».proof.Proof.Gen.ReferenceIdeal.Read
import proofs.«123778_j26439818674288_2_alg».proof.Proof.EgoBlocks
import proofs.«123778_j26439818674288_2_alg».proof.Proof.EgoRef
import proofs.«123778_j26439818674288_2_alg».proof.Proof.LayerNorm
import Idealize.ShloMosaic.Lib.StableHlo.Run
import Idealize.ShloMosaic.Lib.ValueLayout
import Idealize.ShloMosaic.Lib.ValueIdx

noncomputable section

open scoped BigOperators

open Idealize.ShloMosaic Idealize.ShloMosaic.TcCoe Idealize.SL.Sem Idealize.ShloMosaic.ValueIdx

namespace Cert.Bridge

open Cert.KernelIdeal Cert.KernelIdeal.Gen

variable (m : (ℓ : Loc nD τ sig) → Buf (Elt Ideal) ℓ) (ρ : Dev nD → PrngReg) (c : Dev nD)

/-! ## The host operations before the first region: the arrays the region finds -/

/-- The input matrix is as launched. -/
theorem entry_arg0 : V1 m ρ c main_arg0 = m ((c : Thread nD τ).loc main_arg0) := by
  show StableHlo.after hostOps0 _ (Proc.devRef .tc main_arg0) = _
  after_results

/-- The first weight matrix, transposed. -/
theorem entry_v0 : (V1 m ρ c main_v0 : S128x128.Idx → EReal)
    = transpose S128x128 [1, 0] (m ((c : Thread nD τ).loc main_arg2) : S128x128.Idx → EReal) transposes_S128x128_S128x128_1_0 := by
  show StableHlo.after hostOps0 _ (Proc.devRef .tc main_v0) = _
  after_results

/-- The second weight matrix, transposed. -/
theorem entry_v1 : (V1 m ρ c main_v1 : S128x64.Idx → EReal)
    = transpose S128x64 [1, 0] (m ((c : Thread nD τ).loc main_arg6) : S64x128.Idx → EReal) transposes_S64x128_S128x64_1_0 := by
  show StableHlo.after hostOps0 _ (Proc.devRef .tc main_v1) = _
  after_results

/-- The bias, the gain and the offset, each re-laid as one row. -/
theorem entry_v2 : (V1 m ρ c main_v2 : S1x128.Idx → EReal)
    = shapeCast S1x128 (m ((c : Thread nD τ).loc main_arg3) : S128.Idx → EReal) shapeCasts_S128_S1x128 := by
  show StableHlo.after hostOps0 _ (Proc.devRef .tc main_v2) = _
  after_results
  rfl
theorem entry_v3 : (V1 m ρ c main_v3 : S1x128.Idx → EReal)
    = shapeCast S1x128 (m ((c : Thread nD τ).loc main_arg4) : S128.Idx → EReal) shapeCasts_S128_S1x128 := by
  show StableHlo.after hostOps0 _ (Proc.devRef .tc main_v3) = _
  after_results
  rfl
theorem entry_v4 : (V1 m ρ c main_v4 : S1x128.Idx → EReal)
    = shapeCast S1x128 (m ((c : Thread nD τ).loc main_arg5) : S128.Idx → EReal) shapeCasts_S128_S1x128 := by
  show StableHlo.after hostOps0 _ (Proc.devRef .tc main_v4) = _
  after_results
  rfl

/-! The same, read at an entry. -/

theorem entry_v0_apply (k q : Fin 128) :
    (V1 m ρ c main_v0 : S128x128.Idx → EReal) (ix2 k q) = (m ((c : Thread nD τ).loc main_arg2) : S128x128.Idx → EReal) (ix2 q k) := by
  rw [entry_v0]
  exact transpose_ix2_apply _ _ k q
theorem entry_v1_apply (k : Fin 128) (j : Fin 64) :
    (V1 m ρ c main_v1 : S128x64.Idx → EReal) (ix2 k j) = (m ((c : Thread nD τ).loc main_arg6) : S64x128.Idx → EReal) (ix2 j k) := by
  rw [entry_v1]
  exact transpose_ix2_apply _ _ k j
theorem entry_v2_apply (q : Fin 128) :
    (V1 m ρ c main_v2 : S1x128.Idx → EReal) (ix2 (0 : Fin 1) q) = (m ((c : Thread nD τ).loc main_arg3) : S128.Idx → EReal) (ix1 q) := by
  rw [entry_v2]
  exact shapeCast_a_1a_apply _ _ 0 q
theorem entry_v3_apply (q : Fin 128) :
    (V1 m ρ c main_v3 : S1x128.Idx → EReal) (ix2 (0 : Fin 1) q) = (m ((c : Thread nD τ).loc main_arg4) : S128.Idx → EReal) (ix1 q) := by
  rw [entry_v3]
  exact shapeCast_a_1a_apply _ _ 0 q
theorem entry_v4_apply (q : Fin 128) :
    (V1 m ρ c main_v4 : S1x128.Idx → EReal) (ix2 (0 : Fin 1) q) = (m ((c : Thread nD τ).loc main_arg5) : S128.Idx → EReal) (ix1 q) := by
  rw [entry_v4]
  exact shapeCast_a_1a_apply _ _ 0 q

/-! ## Rows that agree entry by entry -/

theorem h0Row_congr {ln : (Fin 128 → EReal) → (Fin 128 → EReal) → (Fin 128 → EReal) → Fin 128 → EReal}
    {x x' : Fin 128 → EReal} {W W' : Fin 128 → Fin 128 → EReal} {b b' g g' o o' : Fin 128 → EReal} {q q' : Fin 128}
    (h0 : ∀ k, x k = x' k) (h1 : ∀ q k, W q k = W' q k) (h2 : ∀ q, b q = b' q) (h3 : ∀ q, g q = g' q)
    (h4 : ∀ q, o q = o' q) (hq : q = q') :
    Cert.Ego.h0Row ln x W b g o q = Cert.Ego.h0Row ln x' W' b' g' o' q' := by
  obtain rfl : x = x' := funext h0
  obtain rfl : W = W' := funext fun q => funext (h1 q)
  obtain rfl : b = b' := funext h2
  obtain rfl : g = g' := funext h3
  obtain rfl : o = o' := funext h4
  rw [hq]

theorem hRow_congr {h h' : Fin 128 → EReal} {W W' : Fin 64 → Fin 128 → EReal} {j j' : Fin 64}
    (h0 : ∀ k, h k = h' k) (h1 : ∀ j k, W j k = W' j k) (hj : j = j') :
    Cert.Ego.hRow h W j = Cert.Ego.hRow h' W' j' := by
  obtain rfl : h = h' := funext h0
  obtain rfl : W = W' := funext fun j => funext (h1 j)
  rw [hj]

/-! ## The first region's two results are the reference's first two stages -/

/-- Row p of the first result is row p of the reference's stage of the same name. -/
theorem stage_h0_row (p : Fin 50000) (q : Fin 128) :
    Cert.Ego.h0Row Cert.LN.lnK (fun k => (V1 m ρ c main_arg0 : S50000x128.Idx → EReal) (ix2 p k))
        (fun q k => (V1 m ρ c main_v0 : S128x128.Idx → EReal) (ix2 k q)) (fun q => (V1 m ρ c main_v2 : S1x128.Idx → EReal) (ix2 (0 : Fin 1) q))
        (fun q => (V1 m ρ c main_v3 : S1x128.Idx → EReal) (ix2 (0 : Fin 1) q))
        (fun q => (V1 m ρ c main_v4 : S1x128.Idx → EReal) (ix2 (0 : Fin 1) q)) q
      = Cert.ReferenceIdeal.Read.val_main_v29 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (ix2 p q) := by
  rw [Cert.Ego.ref_h0, Cert.LN.lnK_eq_lnR, entry_arg0]
  exact h0Row_congr (fun _ => rfl) (fun q k => entry_v0_apply m ρ c k q) (fun q => entry_v2_apply m ρ c q)
    (fun q => entry_v3_apply m ρ c q) (fun q => entry_v4_apply m ρ c q) rfl

/-- The first result: the normalised rectified dense layer, row by row. -/
theorem stage_h0 :
    W2 m ρ c (Proc.devRef .tc main_v5_0)
      = Cert.ReferenceIdeal.Read.val_main_v29 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  refine (W2_arr m ρ c 6).trans ?_
  rw [Cert.Ego.region0_final6 (V1 m ρ) c]
  funext i
  obtain ⟨p, q, rfl⟩ : ∃ (p : Fin 50000) (q : Fin 128), i = ix2 p q := ⟨i 0, i 1, eq_ix2 i⟩
  exact stage_h0_row m ρ c p q

/-- The second result: the second dense layer of the first, row by row. -/
theorem stage_h :
    W2 m ρ c (Proc.devRef .tc main_v5_1)
      = Cert.ReferenceIdeal.Read.val_main_v31 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W2_arr m ρ c 7).trans ?_
  rw [Cert.Ego.region0_final7 (V1 m ρ) c, Cert.Ego.ref_h]
  funext i
  obtain ⟨p, j, rfl⟩ : ∃ (p : Fin 50000) (j : Fin 64), i = ix2 p j := ⟨i 0, i 1, eq_ix2 i⟩
  exact hRow_congr (fun k => stage_h0_row m ρ c p k) (fun j k => entry_v1_apply m ρ c k j) rfl

/-! ## The arguments the later stages read are still as launched -/

theorem kept2_arg1 : W2 m ρ c (Proc.devRef .tc main_arg1) = m ((c : Thread nD τ).loc main_arg1) := by
  refine (W2_of_ne m ρ c main_arg1 (by decide)).trans ?_
  show StableHlo.after hostOps0 _ (Proc.devRef .tc main_arg1) = _
  after_results

theorem kept2_arg7 : W2 m ρ c (Proc.devRef .tc main_arg7) = m ((c : Thread nD τ).loc main_arg7) := by
  refine (W2_of_ne m ρ c main_arg7 (by decide)).trans ?_
  show StableHlo.after hostOps0 _ (Proc.devRef .tc main_arg7) = _
  after_results

theorem kept2_arg8 : W2 m ρ c (Proc.devRef .tc main_arg8) = m ((c : Thread nD τ).loc main_arg8) := by
  refine (W2_of_ne m ρ c main_arg8 (by decide)).trans ?_
  show StableHlo.after hostOps0 _ (Proc.devRef .tc main_arg8) = _
  after_results

theorem kept2_arg9 : W2 m ρ c (Proc.devRef .tc main_arg9) = m ((c : Thread nD τ).loc main_arg9) := by
  refine (W2_of_ne m ρ c main_arg9 (by decide)).trans ?_
  show StableHlo.after hostOps0 _ (Proc.devRef .tc main_arg9) = _
  after_results

theorem kept2_arg10 : W2 m ρ c (Proc.devRef .tc main_arg10) = m ((c : Thread nD τ).loc main_arg10) := by
  refine (W2_of_ne m ρ c main_arg10 (by decide)).trans ?_
  show StableHlo.after hostOps0 _ (Proc.devRef .tc main_arg10) = _
  after_results

theorem kept2_arg11 : W2 m ρ c (Proc.devRef .tc main_arg11) = m ((c : Thread nD τ).loc main_arg11) := by
  refine (W2_of_ne m ρ c main_arg11 (by decide)).trans ?_
  show StableHlo.after hostOps0 _ (Proc.devRef .tc main_arg11) = _
  after_results

end Cert.Bridge

end
-- ==== Proof.AttSpec.lean ====
/-
  The attention row of one edge of the graph, as a function of four rows of numbers.

  An edge carries one row `hr` of the source node's features and one row `hc` of the target node's features, 64 entries
  each. Its relation vector is `max (½ · hr + hc) 0`, entry by entry. The two logits are the inner products of the relation
  vector with the two weight rows `w0` and `w1`. The attention row is the two-way softmax of the logits, computed the
  stable way: the larger logit is subtracted from both before exponentiating, and each exponential is divided by the sum
  of the two. The two float literals (one half, zero) are kept as the words the programs print; everything is on the
  extended reals, with the corner conventions of `Ideal.exp` and `Ideal.div`.

  Also here: the laws, valid for EVERY extended real (no finiteness is assumed), by which a differently spelt softmax is
  the same function — dividing by one changes nothing, the maximum with `⊥` changes nothing, a fold of `max` from `⊥`
  over two entries is the maximum of the two, and a sum over two entries started from zero is the sum of the two.
-/
import Idealize.ShloMosaic.PureOps.Ideal.Laws
import Idealize.ShloMosaic.Lib.ValueIdx

noncomputable section

open scoped BigOperators

namespace Cert.Att

open Idealize.ShloMosaic

/-- One entry of the relation vector: `max (½ · a + b) 0`. -/
def rel (a b : EReal) : EReal :=
  max (Ideal.ofBits .f32 0x3F000000#32 * a + b) (Ideal.ofBits .f32 0x00000000#32)

/-- The logit against one weight row: the inner product of the relation vector with it. -/
def logit (hr hc w : Fin 64 → EReal) : EReal := ∑ k : Fin 64, rel (hr k) (hc k) * w k

/-- The first or the second of two numbers. -/
def pick (a b : EReal) : Fin 2 → EReal
  | ⟨0, _⟩ => a
  | ⟨1, _⟩ => b

/-- The two-way softmax of the logits `l0`, `l1`, entry `c`: `exp (l_c - m) / (exp (l0 - m) + exp (l1 - m))` with
    `m = max l0 l1`. -/
def softmax2 (l0 l1 : EReal) (c : Fin 2) : EReal :=
  Ideal.div (Ideal.exp (pick l0 l1 c - max l0 l1)) (Ideal.exp (l0 - max l0 l1) + Ideal.exp (l1 - max l0 l1))

/-- Entry `c` of the attention row of an edge with source row `hr`, target row `hc` and weight rows `w0`, `w1`. -/
def attRow (hr hc w0 w1 : Fin 64 → EReal) (c : Fin 2) : EReal :=
  softmax2 (logit hr hc w0) (logit hr hc w1) c

theorem pick_zero (a b : EReal) : pick a b 0 = a := rfl
theorem pick_one (a b : EReal) : pick a b 1 = b := rfl

/-- The word `0x3F800000` is the number one. -/
theorem ofBits_one_f32 : Ideal.ofBits .f32 0x3F800000#32 = ((1 : ℝ) : EReal) := by
  simp [Ideal.ofBits, Ideal.ieee, -EReal.coe_mul]; norm_num

/-- The word `0xFF800000` is `⊥`. -/
theorem ofBits_neg_inf_f32 : Ideal.ofBits .f32 0xFF800000#32 = ⊥ := by
  simp [Ideal.ofBits, Ideal.ieee]

/-- Dividing by one changes nothing, whatever the extended real. -/
theorem div_one_word (x : EReal) : Ideal.div x (Ideal.ofBits .f32 0x3F800000#32) = x := by
  rw [ofBits_one_f32, Ideal.div_coe one_ne_zero]
  simp

/-- A fold of `max` from `⊥` over two entries is the maximum of the two. -/
theorem fold_max_two (f : Fin 2 → EReal) : (Finset.univ : Finset (Fin 2)).fold max ⊥ f = max (f 0) (f 1) := by
  rw [show (Finset.univ : Finset (Fin 2)) = insert 0 {1} from by decide, Finset.fold_insert (by decide),
    Finset.fold_singleton, max_eq_left (bot_le : (⊥ : EReal) ≤ f 1)]

end Cert.Att

end
-- ==== Proof.AttKernel.lean ====
/-
  What the edge kernel stores, read at one entry.

  The kernel's body works on a block of 8000 edges at a time: two 8000 × 64 blocks of node features (one row per edge),
  the two 1 × 64 weight rows, and an 8000 × 2 result. Entry (r, c) of the result depends on row r of the two feature
  blocks and on the two weight rows only, and it is entry c of the attention row of that edge (`attRow`): the relation
  vector is pointwise, each logit is a lane sum of the relation vector times a weight row repeated over the rows, kept as a
  one-column matrix, the softmax is pointwise on one-column matrices, and the two resulting columns are put side by side.
-/
import proofs.«123778_j26439818674288_2_alg».proof.Proof.Gen.KernelIdeal.Skeleton
import proofs.«123778_j26439818674288_2_alg».proof.Proof.AttSpec
import proofs.«123778_j26439818674288_2_alg».proof.Proof.LibColumns
import Idealize.ShloMosaic.Lib.Pipeline.Value
import Idealize.ShloMosaic.Lib.ValueLayout

noncomputable section

open scoped BigOperators

namespace Cert.Att

open Idealize.ShloMosaic Idealize.ShloMosaic.ValueIdx Cert.KernelIdeal Cert.KernelIdeal.Gen

/-- Two one-column matrices `A`, `B` of logits, softmaxed pointwise and put side by side: entry (r, c) is the two-way
    softmax of `A r` and `B r` at `c`. -/
theorem softmax_cols (A B : FVec Ideal S8000x1 .f32)
    (h : Shape.Concatenates [S8000x1, S8000x1] S8000x2 1) (r : Fin 8000) (c : Fin 2) :
    concatenate S8000x2 1
        [⟨S8000x1, divf (exp (subf A (maximumf A B))) (addf (exp (subf A (maximumf A B))) (exp (subf B (maximumf A B))))⟩,
         ⟨S8000x1, divf (exp (subf B (maximumf A B))) (addf (exp (subf A (maximumf A B))) (exp (subf B (maximumf A B))))⟩] h (ix2 r c)
      = softmax2 (A (ix2 r 0)) (B (ix2 r 0)) c := by
  match c with
  | ⟨0, _⟩ =>
    refine (concatenate_pair_apply_left (t := S8000x2) 1 _ _ h (ix2 r (0 : Fin 2)) rfl (ix2 r (0 : Fin 1)) (fun d => ?_)).trans ?_
    · match d with
      | ⟨0, _⟩ => rfl
      | ⟨1, _⟩ => rfl
    · rfl
  | ⟨1, _⟩ =>
    refine (concatenate_pair_apply_right (t := S8000x2) 1 _ _ h (ix2 r (1 : Fin 2)) rfl rfl (ix2 r (0 : Fin 1)) (fun d hd => ?_) rfl).trans ?_
    · match d with
      | ⟨0, _⟩ => rfl
      | ⟨1, _⟩ => exact absurd rfl hd
    · rfl

/-- An entry of the relation block: the feature blocks change format (the identity on extended reals), one half and zero
    are repeated over the block, the rest is pointwise. -/
theorem rel_block_apply (v0 v3 : Vec Ideal S8000x64 .bf16) (r : Fin 8000) (k : Fin 64) :
    maximumf (addf (mulf (broadcast S8000x64 (Scalar.ofBits (F := Ideal) .f32 0x3F000000#32))
          (extf .f32 (shapeCast S8000x64 v0 shapeCasts_S8000x64_S8000x64) bitsLt_bf16_f32))
        (extf .f32 (shapeCast S8000x64 v3 shapeCasts_S8000x64_S8000x64) bitsLt_bf16_f32))
      (broadcast S8000x64 (Scalar.ofBits (F := Ideal) .f32 0x00000000#32)) (ix2 r k)
      = rel (v0 (ix2 r k)) (v3 (ix2 r k)) := by
  rw [shapeCast_self, shapeCast_self]
  rfl

/-- A logit column: the relation block times a weight row repeated over the rows, summed along each row, and the vector
    of sums kept as a one-column matrix. Entry (r, 0) is the inner product of row r with the weight row. -/
theorem logit_col_apply (x : FVec Ideal S8000x64 .f32) (w : Vec Ideal S1x64 .f32) (r : Fin 8000) :
    shapeCast S8000x1
        (multiReduction .add [1] S8000 (mulf x (broadcastTo S8000x64 (shapeCast S1x64 w shapeCasts_S1x64_S1x64) broadcasts_S1x64_S8000x64))
          0x00000000#32 reduces_S8000x64_S8000 (.inl rfl) rfl)
        shapeCasts_S8000_S8000x1 (ix2 r 0)
      = ∑ k : Fin 64, x (ix2 r k) * w (ix2 0 k) := by
  refine (LibColumns.shapeCast_vec_col _ shapeCasts_S8000_S8000x1 r).trans
    ((LibColumns.multiReduction_rows _ reduces_S8000x64_S8000 (.inl rfl) rfl r).trans (Finset.sum_congr rfl fun k _ => ?_))
  show x (ix2 r k) * broadcastTo S8000x64 (shapeCast S1x64 w shapeCasts_S1x64_S1x64) broadcasts_S1x64_S8000x64 (ix2 r k) = _
  rw [broadcastTo_1b_ab_apply, shapeCast_self]

/-- THE PAYLOAD AT AN ENTRY: entry (r, c) of what the body stores is entry c of the attention row of the edge in row r. -/
theorem pay_apply (v0 v3 : Vec Ideal S8000x64 .bf16) (v11 v13 : Vec Ideal S1x64 .f32) (r : Fin 8000) (c : Fin 2) :
    k1_pay1 (F := Ideal) v0 v3 v11 v13 (ix2 r c)
      = attRow (fun k => v0 (ix2 r k)) (fun k => v3 (ix2 r k)) (fun k => v11 (ix2 0 k)) (fun k => v13 (ix2 0 k)) c := by
  unfold k1_pay1
  dsimp only
  refine (softmax_cols _ _ _ r c).trans ?_
  unfold attRow logit
  rw [logit_col_apply, logit_col_apply]
  simp only [rel_block_apply]

end Cert.Att

end
-- ==== Proof.AttBlocks.lean ====
/-
  From the blocks the edge kernel writes to the whole attention array.

  The kernel runs over a grid of 100 points. At point t it reads rows 8000·t … 8000·t + 7999 of the two feature arrays
  (one row per edge), the two weight rows whole, and writes rows 8000·t … 8000·t + 7999 of the 800000 × 2 result. Since
  entry (r, c) of what the body stores depends on row r of its feature blocks only, the block written at point t is the
  block at t of ONE function of the arrays as the region finds them: row i of the result is the attention row of edge i.
  The 100 blocks tile the result (row i lies in the block of point i / 8000), so the array ends holding that function.
-/
import proofs.«123778_j26439818674288_2_alg».proof.Proof.Gen.KernelIdeal.Frame
import proofs.«123778_j26439818674288_2_alg».proof.Proof.AttKernel
import Idealize.ShloMosaic.Lib.Pipeline.Value

noncomputable section

open scoped BigOperators

namespace Cert.Att

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The attention array: row `i` is the attention row of edge `i`, from row `i` of the two feature arrays and the two
    weight rows, all as the region finds them. -/
def attArr (c : Dev nD) : S800000x2.Idx → EReal := fun i =>
  attRow (fun k => V c main_v17 (ix2 (i 0) k)) (fun k => V c main_v24 (ix2 (i 0) k))
    (fun k => V c main_v27 (ix2 0 k)) (fun k => V c main_v30 (ix2 0 k)) (i 1)

/-- The attention row depends on its five arguments only through their values. -/
theorem attRow_congr {hr hr' hc hc' w0 w0' w1 w1' : Fin 64 → EReal} {c c' : Fin 2}
    (e0 : ∀ k, hr k = hr' k) (e1 : ∀ k, hc k = hc' k) (e2 : ∀ k, w0 k = w0' k) (e3 : ∀ k, w1 k = w1' k) (e4 : c = c') :
    attRow hr hc w0 w1 c = attRow hr' hc' w0' w1' c' := by
  obtain rfl : hr = hr' := funext e0
  obtain rfl : hc = hc' := funext e1
  obtain rfl : w0 = w0' := funext e2
  obtain rfl : w1 = w1' := funext e3
  rw [e4]

/-- The printed index maps over the grid: the feature windows and the result window move together, one block of rows per
    point; the weight windows stay at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry `x` of the first feature window's block at point `t` is entry `i` of its array, when `i` is row
    `8000·t + x 0`, column `x 1`. -/
theorem iblk_0_apply (c : Dev nD) (t : Fin cfg1.N) (x : S8000x64.Idx) (i : S800000x64.Idx)
    (h0 : (i 0).val = t.val * 8000 + (x 0).val) (h1 : (i 1).val = (x 1).val) :
    (iblk1 V c 0 t : Vec Ideal S8000x64 .bf16) x = V c main_v17 i := by
  obtain ⟨e00, e01, -⟩ := idx_facts t
  unfold iblk1
  rw [View.read_apply]
  show V c main_v17 _ = V c main_v17 _
  refine congrArg _ (funext fun a => Fin.ext ?_)
  match a with
  | ⟨0, _⟩ => show win1_0.index t (0 : Fin 2) * 8000 + 1 * (x 0).val = (i 0).val; rw [e00, h0]; omega
  | ⟨1, _⟩ => show win1_0.index t (1 : Fin 2) * 64 + 1 * (x 1).val = (i 1).val; rw [e01, h1]; omega

/-- The same for the second feature window. -/
theorem iblk_1_apply (c : Dev nD) (t : Fin cfg1.N) (x : S8000x64.Idx) (i : S800000x64.Idx)
    (h0 : (i 0).val = t.val * 8000 + (x 0).val) (h1 : (i 1).val = (x 1).val) :
    (iblk1 V c 1 t : Vec Ideal S8000x64 .bf16) x = V c main_v24 i := by
  obtain ⟨-, -, e10, e11, -⟩ := idx_facts t
  unfold iblk1
  rw [View.read_apply]
  show V c main_v24 _ = V c main_v24 _
  refine congrArg _ (funext fun a => Fin.ext ?_)
  match a with
  | ⟨0, _⟩ => show win1_1.index t (0 : Fin 2) * 8000 + 1 * (x 0).val = (i 0).val; rw [e10, h0]; omega
  | ⟨1, _⟩ => show win1_1.index t (1 : Fin 2) * 64 + 1 * (x 1).val = (i 1).val; rw [e11, h1]; omega

/-- The first weight window's block at every point is its one-row array. -/
theorem iblk_2_apply (c : Dev nD) (t : Fin cfg1.N) (x : S1x64.Idx) :
    (iblk1 V c 2 t : Vec Ideal S1x64 .f32) x = V c main_v27 x := by
  obtain ⟨-, -, -, -, e20, e21, -⟩ := idx_facts t
  unfold iblk1
  rw [View.read_apply]
  show V c main_v27 _ = V c main_v27 _
  refine congrArg _ (funext fun a => Fin.ext ?_)
  match a with
  | ⟨0, _⟩ => show win1_2.index t (0 : Fin 2) * 1 + 1 * (x 0).val = (x 0).val; rw [e20]; omega
  | ⟨1, _⟩ => show win1_2.index t (1 : Fin 2) * 64 + 1 * (x 1).val = (x 1).val; rw [e21]; omega

/-- The same for the second weight window. -/
theorem iblk_3_apply (c : Dev nD) (t : Fin cfg1.N) (x : S1x64.Idx) :
    (iblk1 V c 3 t : Vec Ideal S1x64 .f32) x = V c main_v30 x := by
  obtain ⟨-, -, -, -, -, -, e30, e31, -⟩ := idx_facts t
  unfold iblk1
  rw [View.read_apply]
  show V c main_v30 _ = V c main_v30 _
  refine congrArg _ (funext fun a => Fin.ext ?_)
  match a with
  | ⟨0, _⟩ => show win1_3.index t (0 : Fin 2) * 1 + 1 * (x 0).val = (x 0).val; rw [e30]; omega
  | ⟨1, _⟩ => show win1_3.index t (1 : Fin 2) * 64 + 1 * (x 1).val = (x 1).val; rw [e31]; omega

/-- WHAT POINT `t` WRITES BACK is block `t` of the attention array. -/
theorem flushed_eq (c : Dev nD) (t : Fin cfg1.N) :
    (dat1 V c).flushed 4 t = ((cfg1.win 4).blk t).view.read (Elt Ideal) (attArr V c) := by
  show (cfg1.win 4).cut (grid1.coords t) ((dat1 V c).after 4 t) = _
  rw [after1_4]
  unfold out1_4
  rw [View.canon_unit_zero hz]
  simp only [View.ld_unit_zero (S := S8000x64) hz, View.ld_unit_zero (S := S1x64) hz]
  obtain ⟨-, -, -, -, -, -, -, -, e40, e41⟩ := idx_facts t
  funext j
  obtain ⟨p, q, rfl⟩ : ∃ (p : Fin 8000) (q : Fin 2), j = ix2 p q := ⟨j 0, j 1, eq_ix2 j⟩
  show k1_pay1 (F := Ideal) (iblk1 V c 0 t) (iblk1 V c 1 t) (iblk1 V c 2 t) (iblk1 V c 3 t) (ix2 p q)
    = attArr V c (((cfg1.win 4).blk t).view.emb (ix2 p q))
  have hi0 : ((((cfg1.win 4).blk t).view.emb (ix2 p q)) 0).val = t.val * 8000 + p.val := by
    show win1_4.index t (0 : Fin 2) * 8000 + 1 * p.val = _
    rw [e40]; omega
  have hi1 : ((((cfg1.win 4).blk t).view.emb (ix2 p q)) 1).val = q.val := by
    show win1_4.index t (1 : Fin 2) * 2 + 1 * q.val = _
    rw [e41]; omega
  refine (pay_apply (iblk1 V c 0 t) (iblk1 V c 1 t) (iblk1 V c 2 t) (iblk1 V c 3 t) p q).trans ?_
  unfold attArr
  refine attRow_congr (fun k => ?_) (fun k => ?_) (fun k => ?_) (fun k => ?_) (Fin.ext hi1.symm)
  · exact iblk_0_apply V c t (ix2 p k) _ hi0 rfl
  · exact iblk_1_apply V c t (ix2 p k) _ hi0 rfl
  · exact iblk_2_apply V c t (ix2 0 k)
  · exact iblk_3_apply V c t (ix2 0 k)

/-- An index of the array is in point `t`'s block iff each coordinate is in the block's range on its axis. -/
theorem mem_blk (t : Fin cfg1.N) (i : S800000x2.Idx) :
    i ∈ ((cfg1.win 4).blk t).view.set ↔ ∀ a : Fin 2, win1_4.index t a * S8000x2.size a ≤ (i a).val ∧ (i a).val < win1_4.index t a * S8000x2.size a + S8000x2.size a := by
  show i ∈ ((View.whole main_v31).slice (win1_4.rect t)).set ↔ _
  rw [View.set_slice_whole, Rect.mem_set_unit]
  exact Iff.rfl

/-- Every row of the array lies in the block of the point `row / 8000`. -/
theorem cover (i : S800000x2.Idx) : ∃ t : Fin cfg1.N, (cfg1.win 4).flush t = true ∧ i ∈ ((cfg1.win 4).blk t).view.set := by
  have hi0 : (i 0).val < 800000 := (i 0).isLt
  have hi1 : (i 1).val < 2 := (i 1).isLt
  have hN : cfg1.N = 100 := N_1
  let t : Fin cfg1.N := ⟨(i 0).val / 8000, by rw [hN]; omega⟩
  obtain ⟨-, -, -, -, -, -, -, -, e40, e41⟩ := idx_facts t
  have ht : t.val = (i 0).val / 8000 := rfl
  refine ⟨t, flush1_4 t, ?_⟩
  rw [mem_blk]
  intro a
  match a with
  | ⟨0, _⟩ => show win1_4.index t (0 : Fin 2) * 8000 ≤ (i 0).val ∧ (i 0).val < win1_4.index t (0 : Fin 2) * 8000 + 8000; rw [e40, ht]; omega
  | ⟨1, _⟩ => show win1_4.index t (1 : Fin 2) * 2 ≤ (i 1).val ∧ (i 1).val < win1_4.index t (1 : Fin 2) * 2 + 2; rw [e41]; omega

/-- THE ARRAY after the region: row `i` is the attention row of edge `i`. -/
theorem region1_final (c : Dev nD) :
    (dat1 (F := Ideal) V c).arrAt 4 cfg1.N
      = fun i => attRow (fun k => V c main_v17 (ix2 (i 0) k)) (fun k => V c main_v24 (ix2 (i 0) k))
          (fun k => V c main_v27 (ix2 0 k)) (fun k => V c main_v30 (ix2 0 k)) (i 1) :=
  (dat1 V c).arrAt_eq_of_cover 4 (attArr V c) (fun t _ => flushed_eq V c t) cover

end Cert.Att

end
-- ==== Proof.LibRowMax.lean ====
/-
  The maximum of a row, read at an index, for matrices of `n` rows and `m` columns on the extended reals.
  A lane reduction by maximum along the rows of a matrix, and the host's reduce by maximum along the same axis, are both
  the fold of `max` over the row's entries, started from the accumulator's (respectively the initial) value. Since `max`
  commutes and associates the order of the fold does not matter, and both read the same finite set of entries.
  Nothing here depends on a program.
-/
import Idealize.ShloMosaic.Lib.Pipeline.Value
import Idealize.ShloMosaic.Lib.ValueIdx
import Idealize.ShloMosaic.PureOps.Ideal.Laws

noncomputable section

open scoped BigOperators

namespace Cert.LibRowMax

open Idealize.ShloMosaic Idealize.ShloMosaic.ValueIdx

/-- The index over row `r` with `k` inserted on the reduced axis is `(r, k)`. -/
theorem lift_row {n m : Nat} (h : (⟨2, ![n, m]⟩ : Shape).Reduces [1] ⟨1, ![n]⟩) (r : Fin n) (k : Fin m) :
    h.lift (ix1 r) k = ix2 r k := by
  funext c
  apply Fin.ext
  match c with
  | ⟨0, _⟩ => rfl
  | ⟨1, _⟩ => rfl

/-- A lane reduction by maximum of an `n × m` matrix along its rows: at row `r` the fold of `max` over the row's entries,
    from the value the accumulator's pattern denotes. -/
theorem multiReduction_max_rows {n m : Nat} (src : FVec Ideal ⟨2, ![n, m]⟩ .f32) (acc : BitVec 32)
    (h : (⟨2, ![n, m]⟩ : Shape).Reduces [1] ⟨1, ![n]⟩) (hφ : FKind.Formats .f32)
    (hacc : acc = FKind.maximumf.neutral .f32 hφ) (r : Fin n) :
    multiReduction .maximumf [1] ⟨1, ![n]⟩ src acc h hφ hacc (ix1 r)
      = (Finset.univ : Finset (Fin m)).fold max (Ideal.ofBits .f32 acc) (fun k => src (ix2 r k)) :=
  (Ideal.multiReduction_maximumf_single src acc h hφ hacc (ix1 r)).trans
    (congrArg (fun f : Fin m → EReal => (Finset.univ : Finset (Fin m)).fold max (Ideal.ofBits .f32 acc) f)
      (funext fun k => congrArg src (lift_row h r k)))

/-- The host's reduce by maximum of an `n × m` matrix along its rows: at row `r` the fold of `max` over the row's entries,
    from the initial value. -/
theorem hostReduceMax_rows {n m : Nat} (x : FVec Ideal ⟨2, ![n, m]⟩ .f32) (init : (⟨0, ![]⟩ : Shape).Idx → EReal)
    (h' : (⟨2, ![n, m]⟩ : Shape).ReducesTo [1] ⟨1, ![n]⟩) (hu : 0 < (⟨0, ![]⟩ : Shape).numel)
    (h : (⟨2, ![n, m]⟩ : Shape).Reduces [1] ⟨1, ![n]⟩) (r : Fin n) :
    Host.reduce (FloatOps.maximumf (F := Ideal) (φ := .f32)) x init h' hu (ix1 r)
      = (Finset.univ : Finset (Fin m)).fold max (init ix0) (fun k => x (ix2 r k)) := by
  have e0 : Shape.Idx.first hu = ix0 := funext fun a => a.elim0
  rw [Host.reduce_eq_fold_single (FloatOps.maximumf (F := Ideal) (φ := .f32)) x init h' h hu (ix1 r), e0]
  exact congrArg (fun f : Fin m → EReal => (Finset.univ : Finset (Fin m)).fold max (init ix0) f)
    (funext fun k => congrArg x (lift_row h r k))

end Cert.LibRowMax

end
-- ==== Proof.AttRef.lean ====
/-
  The reference's attention stage, read at one entry.

  The reference computes the attention of all 800000 edges at once: the relation matrix `max (½ · h_row + h_col) 0`, its
  product with the transposed 2 × 64 weight matrix (so column c of the logits is the inner product with weight row c),
  a division of the logits by the temperature one, and a softmax along each row spelt with reductions: the row maximum
  as a fold of `max` from `-∞`, joined once more with `-∞`, subtracted; the exponentials; their row sum started from
  zero; the quotient. Entry (r, c) of the result is entry c of the attention row (`attRow`) of row r of the two gathered
  feature matrices and the two weight rows. The spelling differs from the kernel's only by laws that hold for every
  extended real: `x / 1 = x`, `max ⊥ x = x`, a fold of `max` from `⊥` over two entries is their maximum, `0 + x = x`.
-/
import proofs.«123778_j26439818674288_2_alg».proof.Proof.Gen.ReferenceIdeal.Read
import proofs.«123778_j26439818674288_2_alg».proof.Proof.AttSpec
import proofs.«123778_j26439818674288_2_alg».proof.Proof.LibRowMax

noncomputable section

open scoped BigOperators

namespace Cert.Att

open Idealize.ShloMosaic Idealize.ShloMosaic.ValueIdx Cert.ReferenceIdeal Cert.ReferenceIdeal.Gen Cert.ReferenceIdeal.Read

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 x4 x5 : (⟨S128, .f32⟩ : BufTy).Contents (Elt Ideal))
  (x6 : (⟨S64x128, .f32⟩ : BufTy).Contents (Elt Ideal)) (x7 : (⟨S2x64, .f32⟩ : BufTy).Contents (Elt Ideal))

/-- The logits after the division by one: entry (r, c) is the inner product of row r of the relation matrix with weight
    row c. -/
theorem logit_ref (r : Fin 800000) (c : Fin 2) :
    val_main_v57 (F := Ideal) x0 x1 x2 x3 x4 x5 x6 x7 (ix2 r c)
      = logit (fun k => val_main_v49 (F := Ideal) x0 x1 x2 x3 x4 x5 x6 (ix2 r k))
          (fun k => val_main_v42 (F := Ideal) x0 x1 x2 x3 x4 x5 x6 (ix2 r k)) (fun k => x7 (ix2 c k)) := by
  rw [val_main_v57_apply, val_main_v56_apply, val_main_cst_8_apply, val_main_v55_apply]
  simp only [Ideal.hostDivf_def, Ideal.ofBits_def]
  rw [div_one_word]
  unfold logit
  refine Finset.sum_congr rfl fun k _ => ?_
  have el : lidx_main_v55 (ix2 r c) k = ix2 r k :=
    funext fun a => Fin.ext (by match a with | ⟨0, _⟩ => rfl | ⟨1, _⟩ => rfl)
  have er : idx_main_v54 (ridx_main_v55 (ix2 r c) k) = ix2 c k :=
    funext fun a => Fin.ext (by match a with | ⟨0, _⟩ => rfl | ⟨1, _⟩ => rfl)
  rw [val_main_v54_apply, el, er, val_main_v53_apply, val_main_v52_apply, val_main_v51_apply, val_main_v50_apply,
    val_main_cst_7_apply, val_main_call1_v0_apply, val_main_call1_cst_apply]
  rfl

/-- The row maximum, joined with `-∞`: the maximum of the row's two logits. -/
theorem max_ref (r : Fin 800000) :
    val_main_v60 (F := Ideal) x0 x1 x2 x3 x4 x5 x6 x7 (ix1 r)
      = max (val_main_v57 (F := Ideal) x0 x1 x2 x3 x4 x5 x6 x7 (ix2 r 0)) (val_main_v57 (F := Ideal) x0 x1 x2 x3 x4 x5 x6 x7 (ix2 r 1)) := by
  rw [val_main_v60_apply, val_main_v59_apply, val_main_cst_10_apply]
  unfold val_main_v58
  rw [LibRowMax.hostReduceMax_rows _ _ reducesTo_S800000x2_S800000_d1 h_S_ (by decide) r, val_main_cst_9_apply]
  simp only [Ideal.maximumf_def, Ideal.ofBits_def]
  rw [ofBits_neg_inf_f32, fold_max_two, max_eq_right bot_le]

/-- The exponentials: entry (r, c) is `exp` of the logit less the row's maximum. -/
theorem exp_ref (r : Fin 800000) (c : Fin 2) :
    val_main_v64 (F := Ideal) x0 x1 x2 x3 x4 x5 x6 x7 (ix2 r c)
      = Ideal.exp (val_main_v57 (F := Ideal) x0 x1 x2 x3 x4 x5 x6 x7 (ix2 r c)
          - max (val_main_v57 (F := Ideal) x0 x1 x2 x3 x4 x5 x6 x7 (ix2 r 0)) (val_main_v57 (F := Ideal) x0 x1 x2 x3 x4 x5 x6 x7 (ix2 r 1))) := by
  have e : idx_main_v61 (idx_main_v62 (ix2 r c)) = ix1 r :=
    funext fun a => Fin.ext (by match a with | ⟨0, _⟩ => rfl)
  rw [val_main_v64_apply, val_main_v63_apply, val_main_v62_apply, val_main_v61_apply, e, max_ref]
  rfl

/-- The row sums, repeated over the row: entry (r, c) is the sum of the row's two exponentials. -/
theorem sum_ref (r : Fin 800000) (c : Fin 2) :
    val_main_v67 (F := Ideal) x0 x1 x2 x3 x4 x5 x6 x7 (ix2 r c)
      = val_main_v64 (F := Ideal) x0 x1 x2 x3 x4 x5 x6 x7 (ix2 r 0) + val_main_v64 (F := Ideal) x0 x1 x2 x3 x4 x5 x6 x7 (ix2 r 1) := by
  have e : idx_main_v66 (idx_main_v67 (ix2 r c)) = ix1 r :=
    funext fun a => Fin.ext (by match a with | ⟨0, _⟩ => rfl)
  have e0 : idx_main_v65 (ix1 r) 0 = ix2 r 0 :=
    funext fun a => Fin.ext (by match a with | ⟨0, _⟩ => rfl | ⟨1, _⟩ => rfl)
  have e1 : idx_main_v65 (ix1 r) 1 = ix2 r 1 :=
    funext fun a => Fin.ext (by match a with | ⟨0, _⟩ => rfl | ⟨1, _⟩ => rfl)
  rw [val_main_v67_apply, val_main_v66_apply, e, val_main_v65_apply, val_main_cst_11_apply, Fin.sum_univ_two, e0, e1]
  simp only [Ideal.ofBits_def, Ideal.ofBits_zero_f32, zero_add]

/-- THE REFERENCE'S ATTENTION: row `i` is the attention row of row `i` of the two gathered feature matrices and the two
    rows of the weight matrix. -/
theorem ref_att :
    val_main_v68 (F := Ideal) x0 x1 x2 x3 x4 x5 x6 x7
      = fun i => attRow (fun k => val_main_v49 (F := Ideal) x0 x1 x2 x3 x4 x5 x6 (ix2 (i 0) k))
          (fun k => val_main_v42 (F := Ideal) x0 x1 x2 x3 x4 x5 x6 (ix2 (i 0) k))
          (fun k => x7 (ix2 0 k)) (fun k => x7 (ix2 1 k)) (i 1) := by
  funext i
  obtain ⟨r, c, rfl⟩ : ∃ (r : Fin 800000) (c : Fin 2), i = ix2 r c := ⟨i 0, i 1, eq_ix2 i⟩
  show val_main_v68 (F := Ideal) x0 x1 x2 x3 x4 x5 x6 x7 (ix2 r c)
    = attRow (fun k => val_main_v49 (F := Ideal) x0 x1 x2 x3 x4 x5 x6 (ix2 r k))
        (fun k => val_main_v42 (F := Ideal) x0 x1 x2 x3 x4 x5 x6 (ix2 r k)) (fun k => x7 (ix2 0 k)) (fun k => x7 (ix2 1 k)) c
  have hc : val_main_v57 (F := Ideal) x0 x1 x2 x3 x4 x5 x6 x7 (ix2 r c)
      = pick (val_main_v57 (F := Ideal) x0 x1 x2 x3 x4 x5 x6 x7 (ix2 r 0)) (val_main_v57 (F := Ideal) x0 x1 x2 x3 x4 x5 x6 x7 (ix2 r 1)) c := by
    match c with
    | ⟨0, _⟩ => rfl
    | ⟨1, _⟩ => rfl
  rw [val_main_v68_apply, sum_ref, exp_ref x0 x1 x2 x3 x4 x5 x6 x7 r c, exp_ref x0 x1 x2 x3 x4 x5 x6 x7 r 0,
    exp_ref x0 x1 x2 x3 x4 x5 x6 x7 r 1, hc, logit_ref x0 x1 x2 x3 x4 x5 x6 x7 r 0, logit_ref x0 x1 x2 x3 x4 x5 x6 x7 r 1]
  rfl

end Cert.Att

end
-- ==== Proof.StageAtt.lean ====
/-
  The middle of the kernel's run, read against the reference's stages. Between the first and the second kernel the host
  gathers rows of h at the two halves of edge_index (the index words first moved into range), and re-lays the two rows
  of Watt; the second kernel then leaves the attention weights. The host operations are the reference's own, so with h
  equal on both sides the gathered rows are the reference's, and the kernel's attention array is the reference's.
-/
import proofs.«123778_j26439818674288_2_alg».proof.Proof.Gen.KernelIdeal.Frame
import proofs.«123778_j26439818674288_2_alg».proof.Proof.Gen.ReferenceIdeal.Read
import proofs.«123778_j26439818674288_2_alg».proof.Proof.AttBlocks
import proofs.«123778_j26439818674288_2_alg».proof.Proof.AttRef
import Idealize.ShloMosaic.Lib.StableHlo.Run
import Idealize.ShloMosaic.Lib.ValueLayout

noncomputable section

namespace Cert.Bridge

open Idealize.ShloMosaic Idealize.ShloMosaic.TcCoe Idealize.ShloMosaic.ValueIdx Idealize.SL.Sem Idealize.ShloMosaic.StableHlo
open Cert.KernelIdeal Cert.KernelIdeal.Gen

section Stretch1

variable (W : Valuation τ sig (Elt Ideal))

set_option maxHeartbeats 2000000 in
/-- The rows of h gathered at the first half of edge_index, as the reference spells them. -/
theorem s1_hrow : after (hostOps1 (F := Ideal)) W (Proc.devRef .tc main_v17)
    = Host.gather Cert.ReferenceIdeal.gather_S50000x64_S800000x1_S800000x64_1_0_n_n_0_1_164 (W (Proc.devRef .tc main_v5_1))
        (Cert.ReferenceIdeal.Read.val_main_v48 (F := Ideal) (W (Proc.devRef .tc main_arg1))) := by
  after_results
  rfl

set_option maxHeartbeats 2000000 in
/-- The rows of h gathered at the second half of edge_index. -/
theorem s1_hcol : after (hostOps1 (F := Ideal)) W (Proc.devRef .tc main_v24)
    = Host.gather Cert.ReferenceIdeal.gather_S50000x64_S800000x1_S800000x64_1_0_n_n_0_1_164 (W (Proc.devRef .tc main_v5_1))
        (Cert.ReferenceIdeal.Read.val_main_v41 (F := Ideal) (W (Proc.devRef .tc main_arg1))) := by
  after_results
  rfl

/-- The first half of edge_index as a vector. -/
theorem s1_row : after (hostOps1 (F := Ideal)) W (Proc.devRef .tc main_v7)
    = Cert.ReferenceIdeal.Read.val_main_v33 (F := Ideal) (W (Proc.devRef .tc main_arg1)) := by
  after_results
  rfl

/-- Row 0 of Watt re-laid as a one-row matrix. -/
theorem s1_w0 : after (hostOps1 (F := Ideal)) W (Proc.devRef .tc main_v27)
    = shapeCast S1x64 (shapeCast S64 (extractStridedSlice S1x64 ![0, 0] (W (Proc.devRef .tc main_arg7)) slices_S2x64_S1x64_0_0) shapeCasts_S1x64_S64) shapeCasts_S64_S1x64 := by
  after_results
  rfl

/-- Row 1 of Watt re-laid as a one-row matrix. -/
theorem s1_w1 : after (hostOps1 (F := Ideal)) W (Proc.devRef .tc main_v30)
    = shapeCast S1x64 (shapeCast S64 (extractStridedSlice S1x64 ![1, 0] (W (Proc.devRef .tc main_arg7)) slices_S2x64_S1x64_1_0) shapeCasts_S1x64_S64) shapeCasts_S64_S1x64 := by
  after_results
  rfl

theorem s1_w0_apply (k : Fin 64) : after (hostOps1 (F := Ideal)) W (Proc.devRef .tc main_v27) (ix2 (0 : Fin 1) k)
    = (W (Proc.devRef .tc main_arg7) : S2x64.Idx → EReal) (ix2 (0 : Fin 2) k) := by
  rw [s1_w0, shapeCast_a_1a_apply, shapeCast_1a_a_apply]
  exact slice2_axis0_apply 0 _ _ (0 : Fin 1) k (0 : Fin 2) rfl

theorem s1_w1_apply (k : Fin 64) : after (hostOps1 (F := Ideal)) W (Proc.devRef .tc main_v30) (ix2 (0 : Fin 1) k)
    = (W (Proc.devRef .tc main_arg7) : S2x64.Idx → EReal) (ix2 (1 : Fin 2) k) := by
  rw [s1_w1, shapeCast_a_1a_apply, shapeCast_1a_a_apply]
  exact slice2_axis0_apply 1 _ _ (0 : Fin 1) k (1 : Fin 2) rfl

/-- Buffers the stretch does not write. -/
theorem s1_keep_v5_0 : after (hostOps1 (F := Ideal)) W (Proc.devRef .tc main_v5_0) = W (Proc.devRef .tc main_v5_0) := by after_results
theorem s1_keep_arg8 : after (hostOps1 (F := Ideal)) W (Proc.devRef .tc main_arg8) = W (Proc.devRef .tc main_arg8) := by after_results
theorem s1_keep_arg9 : after (hostOps1 (F := Ideal)) W (Proc.devRef .tc main_arg9) = W (Proc.devRef .tc main_arg9) := by after_results
theorem s1_keep_arg10 : after (hostOps1 (F := Ideal)) W (Proc.devRef .tc main_arg10) = W (Proc.devRef .tc main_arg10) := by after_results
theorem s1_keep_arg11 : after (hostOps1 (F := Ideal)) W (Proc.devRef .tc main_arg11) = W (Proc.devRef .tc main_arg11) := by after_results

end Stretch1

end Cert.Bridge

end
-- ==== Proof.StageOut.lean ====
/-
  The host operations between the edge kernel and the last kernel, read against the reference's stages.

  After the edge kernel has left the attention weights, the host multiplies each edge's target row by each of its two
  attention weights (the weights repeated along the 64 features, the target rows repeated over the two heads, the 2 × 64
  products laid out as one row of 128), and adds the rows of all edges with the same source node into an array of zeros
  (a scatter-add at the first half of edge_index). These are the reference's own operations in the reference's order,
  the only difference being a change of float format of the target rows, which is the identity on the extended reals. So
  with the source indices, the attention weights and the gathered target rows equal on both sides, the aggregated array is
  the reference's. The same stretch re-lays the last kernel's parameters: the scale, the shift and the bias as one-row
  matrices, the output weight matrix transposed.
-/
import proofs.«123778_j26439818674288_2_alg».proof.Proof.Gen.KernelIdeal.Frame
import proofs.«123778_j26439818674288_2_alg».proof.Proof.Gen.ReferenceIdeal.Read
import Idealize.ShloMosaic.Lib.StableHlo.Run
import Idealize.ShloMosaic.Lib.ValueLayout

noncomputable section

namespace Cert.Bridge

open Idealize.ShloMosaic Idealize.ShloMosaic.TcCoe Idealize.ShloMosaic.ValueIdx Idealize.SL.Sem Idealize.ShloMosaic.StableHlo
open Cert.KernelIdeal Cert.KernelIdeal.Gen

section Stretch2

variable (W : Valuation τ sig (Elt Ideal))

/-- THE AGGREGATED ARRAY: with the source indices, the attention weights and the gathered target rows the reference's, the
    scatter-add of the weighted target rows is the reference's. -/
theorem s2_agg
    (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S128x128, .f32⟩ : BufTy).Contents (Elt Ideal))
    (x3 x4 x5 : (⟨Cert.ReferenceIdeal.S128, .f32⟩ : BufTy).Contents (Elt Ideal))
    (x6 : (⟨Cert.ReferenceIdeal.S64x128, .f32⟩ : BufTy).Contents (Elt Ideal))
    (x7 : (⟨Cert.ReferenceIdeal.S2x64, .f32⟩ : BufTy).Contents (Elt Ideal))
    (h7 : W (Proc.devRef .tc main_v7) = Cert.ReferenceIdeal.Read.val_main_v33 (F := Ideal) x1)
    (h31 : W (Proc.devRef .tc main_v31) = Cert.ReferenceIdeal.Read.val_main_v68 (F := Ideal) x0 x1 x2 x3 x4 x5 x6 x7)
    (h24 : W (Proc.devRef .tc main_v24) = Cert.ReferenceIdeal.Read.val_main_v42 (F := Ideal) x0 x1 x2 x3 x4 x5 x6) :
    after (hostOps2 (F := Ideal)) W (Proc.devRef .tc main_v41)
      = Cert.ReferenceIdeal.Read.val_main_v77 (F := Ideal) x0 x1 x2 x3 x4 x5 x6 x7 := by
  after_results
  rw [h7, h31, h24]
  rfl

/-- The scale as a one-row matrix. -/
theorem s2_g1 : after (hostOps2 (F := Ideal)) W (Proc.devRef .tc main_v42)
    = shapeCast S1x128 (W (Proc.devRef .tc main_arg8)) shapeCasts_S128_S1x128 := by
  after_results
  rfl

/-- The shift as a one-row matrix. -/
theorem s2_beta1 : after (hostOps2 (F := Ideal)) W (Proc.devRef .tc main_v43)
    = shapeCast S1x128 (W (Proc.devRef .tc main_arg9)) shapeCasts_S128_S1x128 := by
  after_results
  rfl

/-- The output weight matrix transposed. -/
theorem s2_w2 : after (hostOps2 (F := Ideal)) W (Proc.devRef .tc main_v44)
    = transpose S128x40 [1, 0] (W (Proc.devRef .tc main_arg10)) transposes_S40x128_S128x40_1_0 := by
  after_results

/-- The output bias as a one-row matrix. -/
theorem s2_b2 : after (hostOps2 (F := Ideal)) W (Proc.devRef .tc main_v45)
    = shapeCast S1x40 (W (Proc.devRef .tc main_arg11)) shapeCasts_S40_S1x40 := by
  after_results
  rfl

theorem s2_g1_apply (k : Fin 128) : after (hostOps2 (F := Ideal)) W (Proc.devRef .tc main_v42) (ix2 (0 : Fin 1) k)
    = (W (Proc.devRef .tc main_arg8) : S128.Idx → EReal) (ix1 k) := by
  rw [s2_g1, shapeCast_a_1a_apply]

theorem s2_beta1_apply (k : Fin 128) : after (hostOps2 (F := Ideal)) W (Proc.devRef .tc main_v43) (ix2 (0 : Fin 1) k)
    = (W (Proc.devRef .tc main_arg9) : S128.Idx → EReal) (ix1 k) := by
  rw [s2_beta1, shapeCast_a_1a_apply]

theorem s2_b2_apply (j : Fin 40) : after (hostOps2 (F := Ideal)) W (Proc.devRef .tc main_v45) (ix2 (0 : Fin 1) j)
    = (W (Proc.devRef .tc main_arg11) : S40.Idx → EReal) (ix1 j) := by
  rw [s2_b2, shapeCast_a_1a_apply]

theorem s2_w2_apply (k : Fin 128) (j : Fin 40) : after (hostOps2 (F := Ideal)) W (Proc.devRef .tc main_v44) (ix2 k j)
    = (W (Proc.devRef .tc main_arg10) : S40x128.Idx → EReal) (ix2 j k) := by
  rw [s2_w2, transpose_ix2_apply]

/-- The first kernel's normalised rows are not written by the stretch. -/
theorem s2_keep_v5_0 : after (hostOps2 (F := Ideal)) W (Proc.devRef .tc main_v5_0) = W (Proc.devRef .tc main_v5_0) := by after_results

end Stretch2

end Cert.Bridge

end
-- ==== Proof.OutSpec.lean ====
/-
  One row of the network's tail, as a function on the extended reals.

  From one row `agg` of the aggregated messages and the same row `ego` of the first layer's output: the row is
  rectified (the maximum with zero, entry by entry), normalised along its 128 entries with gain `g1` and offset
  `beta1`, averaged with the `ego` row (each weighted by one half), and the result is multiplied by the 40 × 128
  matrix `W2` and shifted by `b2`:

    outRow j = (∑ k, (½ · ln (max agg 0) g1 beta1 k + ½ · ego k) · W2 j k) + b2 j.

  The normalisation `ln` is a parameter, so that a program which multiplies by the reciprocal square root and one which
  divides by the square root are both instances of the one formula.  The three float literals (zero, one half) are
  kept as the words the programs print.
-/
import Idealize.ShloMosaic.PureOps.Ideal

noncomputable section

open scoped BigOperators

namespace Cert.Out

open Idealize.ShloMosaic

/-- The programs' float literal 0.0. -/
def zero : EReal := Ideal.ofBits .f32 0x00000000#32
/-- The programs' float literal 0.5. -/
def half : EReal := Ideal.ofBits .f32 0x3F000000#32

/-- Entry `k` of the blended row: half the normalised rectified `agg` row plus half the `ego` row. -/
def blend (ln : (Fin 128 → EReal) → (Fin 128 → EReal) → (Fin 128 → EReal) → Fin 128 → EReal)
    (ego agg g1 beta1 : Fin 128 → EReal) (k : Fin 128) : EReal :=
  half * ln (fun q => max (agg q) zero) g1 beta1 k + half * ego k

/-- Entry `j` of the output row: the blended row against row `j` of `W2`, plus `b2 j`. -/
def outRow (ln : (Fin 128 → EReal) → (Fin 128 → EReal) → (Fin 128 → EReal) → Fin 128 → EReal)
    (ego agg g1 beta1 : Fin 128 → EReal) (W2 : Fin 40 → Fin 128 → EReal) (b2 : Fin 40 → EReal) (j : Fin 40) : EReal :=
  (∑ k : Fin 128, blend ln ego agg g1 beta1 k * W2 j k) + b2 j

end Cert.Out

end
-- ==== Proof.LibDense.lean ====
/-
  The dense pieces of a two-layer graph convolution with a mean-pool head, as functions on the extended reals, and
  the two spellings a program has for each.

  `prod x w` is the matrix product, entry (p, j) the sum over k of x (p, k) · w (k, j); `act x b` adds the one-row
  matrix `b` to every row of `x` and takes the maximum with zero (bias, then relu); `shift y b` adds the one-row matrix
  to every row.  A kernel spells a product as a matrix-unit product into a zero accumulator, the host as a
  `dot_general`; a kernel spreads the bias row by a vector broadcast of the (re-cast) row and takes the maximum with a
  splat of the scalar zero, the host broadcasts the row in dimensions (0, 1) and takes the maximum with a broadcast of
  the rank-0 zero.  Both spellings of each piece are the one function; nothing here uses more of the arithmetic of the
  extended reals than 0 + s = s, so no finiteness is needed.  General in the extents A, K, M.  Also: each function read
  through maps of its indices (`prod_reindex`, `act_reindex`, `shift_reindex`: a block of rows of a product is the
  product of the block of rows, and the like), and a vector re-cast as one row against its broadcast along axis 1
  (`row_cast_eq_broadcast`).  The product lemmas take the four coordinate facts of a plain [A,K]×[K,M] record, as
  `Cert.DotSum.contr_sum` (LibDotSum.lean, which this file needs beside it) does.
-/
import proofs.«123778_j26439818674288_2_alg».proof.Proof.LibDotSum
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Idealize.ShloMosaic.PureOps.Ideal.Laws

noncomputable section

namespace Cert.Dense

open Idealize.ShloMosaic Idealize.ShloMosaic.ValueIdx

/-- The matrix product on the extended reals: entry (p, j) is the sum over k of x (p, k) · w (k, j). -/
def prod {A K M : ℕ} (x : (⟨2, ![A, K]⟩ : Shape).Idx → EReal) (w : (⟨2, ![K, M]⟩ : Shape).Idx → EReal) :
    (⟨2, ![A, M]⟩ : Shape).Idx → EReal :=
  fun i => ∑ k : Fin K, x (ix2 (i 0 : Fin A) k) * w (ix2 k (i 1 : Fin M))

/-- Bias and relu: the one-row matrix `b` added to every row, then the maximum with zero. -/
def act {A M : ℕ} (x : (⟨2, ![A, M]⟩ : Shape).Idx → EReal) (b : (⟨2, ![1, M]⟩ : Shape).Idx → EReal) :
    (⟨2, ![A, M]⟩ : Shape).Idx → EReal :=
  fun i => max (x i + b (ix2 (0 : Fin 1) (i 1 : Fin M))) (Ideal.ofBits .f32 0x00000000#32)

/-- The one-row matrix `b` added to every row. -/
def shift {A M : ℕ} (y : (⟨2, ![A, M]⟩ : Shape).Idx → EReal) (b : (⟨2, ![1, M]⟩ : Shape).Idx → EReal) :
    (⟨2, ![A, M]⟩ : Shape).Idx → EReal :=
  fun i => y i + b (ix2 (0 : Fin 1) (i 1 : Fin M))

theorem prod_apply {A K M : ℕ} (x : (⟨2, ![A, K]⟩ : Shape).Idx → EReal) (w : (⟨2, ![K, M]⟩ : Shape).Idx → EReal)
    (p : Fin A) (j : Fin M) : prod x w (ix2 p j) = ∑ k : Fin K, x (ix2 p k) * w (ix2 k j) := rfl

theorem act_apply {A M : ℕ} (x : (⟨2, ![A, M]⟩ : Shape).Idx → EReal) (b : (⟨2, ![1, M]⟩ : Shape).Idx → EReal)
    (p : Fin A) (j : Fin M) :
    act x b (ix2 p j) = max (x (ix2 p j) + b (ix2 (0 : Fin 1) j)) (Ideal.ofBits .f32 0x00000000#32) := rfl

theorem shift_apply {A M : ℕ} (y : (⟨2, ![A, M]⟩ : Shape).Idx → EReal) (b : (⟨2, ![1, M]⟩ : Shape).Idx → EReal)
    (p : Fin A) (j : Fin M) : shift y b (ix2 p j) = y (ix2 p j) + b (ix2 (0 : Fin 1) j) := rfl

/-- The product of two matrices read through maps of their indices, at an entry `j`, is the product of the matrices
    at the entry `j'` whenever the maps carry row `j 0` to row `j' 0` and column `j 1` to column `j' 1`, the
    contraction coordinate kept: a block of rows of a product is the product of the block of rows. -/
theorem prod_reindex {A K M A' M' : ℕ} (X : (⟨2, ![A', K]⟩ : Shape).Idx → EReal) (W : (⟨2, ![K, M']⟩ : Shape).Idx → EReal)
    (eX : (⟨2, ![A, K]⟩ : Shape).Idx → (⟨2, ![A', K]⟩ : Shape).Idx) (eW : (⟨2, ![K, M]⟩ : Shape).Idx → (⟨2, ![K, M']⟩ : Shape).Idx)
    (j : (⟨2, ![A, M]⟩ : Shape).Idx) (j' : (⟨2, ![A', M']⟩ : Shape).Idx)
    (hX : ∀ k : Fin K, eX (ix2 (j 0 : Fin A) k) = ix2 (j' 0 : Fin A') k)
    (hW : ∀ k : Fin K, eW (ix2 k (j 1 : Fin M)) = ix2 k (j' 1 : Fin M')) :
    prod (fun y => X (eX y)) (fun y => W (eW y)) j = prod X W j' :=
  Finset.sum_congr rfl fun k _ => by
    show X (eX (ix2 (j 0 : Fin A) k)) * W (eW (ix2 k (j 1 : Fin M))) = X (ix2 (j' 0 : Fin A') k) * W (ix2 k (j' 1 : Fin M'))
    rw [hX k, hW k]
    rfl

/-- Bias-then-relu of a matrix and a bias row read through maps of their indices, at an entry `j`, is bias-then-relu
    of the matrix and the row at the entry `j'` whenever the first map carries `j` to `j'` and the second keeps the
    column: a block of rows of bias-then-relu is bias-then-relu of the block of rows. -/
theorem act_reindex {A M A' : ℕ} (X : (⟨2, ![A', M]⟩ : Shape).Idx → EReal) (B : (⟨2, ![1, M]⟩ : Shape).Idx → EReal)
    (eX : (⟨2, ![A, M]⟩ : Shape).Idx → (⟨2, ![A', M]⟩ : Shape).Idx) (eB : (⟨2, ![1, M]⟩ : Shape).Idx → (⟨2, ![1, M]⟩ : Shape).Idx)
    (j : (⟨2, ![A, M]⟩ : Shape).Idx) (j' : (⟨2, ![A', M]⟩ : Shape).Idx)
    (hX : eX j = j') (hB : eB (ix2 (0 : Fin 1) (j 1 : Fin M)) = ix2 (0 : Fin 1) (j' 1 : Fin M)) :
    act (fun y => X (eX y)) (fun y => B (eB y)) j = act X B j' := by
  show max (X (eX j) + B (eB (ix2 (0 : Fin 1) (j 1 : Fin M)))) _ = max (X j' + B (ix2 (0 : Fin 1) (j' 1 : Fin M))) _
  rw [hX, hB]
  rfl

/-- A matrix shifted by a bias row read through a map of its indices, at an entry `j`, is the shift at `j'` whenever
    the matrices agree there and the map keeps the column. -/
theorem shift_reindex {A M A' : ℕ} (Y' : (⟨2, ![A, M]⟩ : Shape).Idx → EReal) (Y : (⟨2, ![A', M]⟩ : Shape).Idx → EReal)
    (B : (⟨2, ![1, M]⟩ : Shape).Idx → EReal) (eB : (⟨2, ![1, M]⟩ : Shape).Idx → (⟨2, ![1, M]⟩ : Shape).Idx)
    (j : (⟨2, ![A, M]⟩ : Shape).Idx) (j' : (⟨2, ![A', M]⟩ : Shape).Idx)
    (hY : Y' j = Y j') (hB : eB (ix2 (0 : Fin 1) (j 1 : Fin M)) = ix2 (0 : Fin 1) (j' 1 : Fin M)) :
    shift Y' (fun y => B (eB y)) j = shift Y B j' := by
  show Y' j + B (eB (ix2 (0 : Fin 1) (j 1 : Fin M))) = Y j' + B (ix2 (0 : Fin 1) (j' 1 : Fin M))
  rw [hY, hB]
  rfl

/-! ## The product, in a kernel and on the host -/

section Products

variable {A K M : ℕ} {φ₁ φ₂ : FTy} (d : DotDims ⟨2, ![A, K]⟩ ⟨2, ![K, M]⟩ ⟨2, ![A, M]⟩)
  (hr : d.contr.rank = 1) (hs : d.contr.size ⟨0, by omega⟩ = K)
  (hl0 : ∀ (i : (⟨2, ![A, M]⟩ : Shape).Idx) (q : d.contr.Idx), (d.lhsIdx i q 0).val = (i 0).val)
  (hl1 : ∀ (i : (⟨2, ![A, M]⟩ : Shape).Idx) (q : d.contr.Idx), (d.lhsIdx i q 1).val = (q ⟨0, by omega⟩).val)
  (hr0 : ∀ (i : (⟨2, ![A, M]⟩ : Shape).Idx) (q : d.contr.Idx), (d.rhsIdx i q 0).val = (q ⟨0, by omega⟩).val)
  (hr1 : ∀ (i : (⟨2, ![A, M]⟩ : Shape).Idx) (q : d.contr.Idx), (d.rhsIdx i q 1).val = (i 1).val)

include hr hs hl0 hl1 hr0 hr1

/-- A kernel's matrix-unit product into a zero accumulator is the product. -/
theorem matmul_zero_eq_prod (prec : Option ContractPrecision) (l : FVec Ideal ⟨2, ![A, K]⟩ φ₁) (r : FVec Ideal ⟨2, ![K, M]⟩ φ₂) :
    matmul d prec l r (constant ⟨2, ![A, M]⟩ .f32 0x00000000#32) = prod l r := by
  funext i
  obtain ⟨p, j, rfl⟩ : ∃ (p : Fin A) (j : Fin M), i = ix2 p j := ⟨i 0, i 1, eq_ix2 i⟩
  show FloatOps.matmul d prec l r (constant ⟨2, ![A, M]⟩ .f32 0x00000000#32) (ix2 p j) = _
  rw [Ideal.matmul_constant_zero_apply]
  exact Cert.DotSum.contr_sum d hr hs hl0 hl1 hr0 hr1 l r p j

/-- The host's `dot_general` is the product. -/
theorem dotGeneral_eq_prod (prec : Option ContractPrecision) (l : FVec Ideal ⟨2, ![A, K]⟩ φ₁) (r : FVec Ideal ⟨2, ![K, M]⟩ φ₂) :
    Host.dotGeneral d prec l r = prod l r := by
  rw [← matmul_zero_eq_dotGeneral]
  exact matmul_zero_eq_prod d hr hs hl0 hl1 hr0 hr1 prec l r

end Products

/-! ## Bias and relu, in a kernel and on the host -/

/-- A kernel's form: the row re-cast (twice) and broadcast down the rows, added, and the maximum with a splat of the
    scalar zero. -/
theorem kernel_act {A M : ℕ} (x : (⟨2, ![A, M]⟩ : Shape).Idx → EReal) (b : (⟨2, ![1, M]⟩ : Shape).Idx → EReal)
    (hx : (⟨2, ![A, M]⟩ : Shape).ShapeCasts ⟨2, ![A, M]⟩) (hb : (⟨2, ![1, M]⟩ : Shape).ShapeCasts ⟨2, ![1, M]⟩)
    (hbc : (⟨2, ![1, M]⟩ : Shape).Broadcasts ⟨2, ![A, M]⟩) :
    maximumf (F := Ideal) (φ := .f32)
        (addf (shapeCast ⟨2, ![A, M]⟩ x hx) (broadcastTo ⟨2, ![A, M]⟩ (shapeCast ⟨2, ![1, M]⟩ (shapeCast ⟨2, ![1, M]⟩ b hb) hb) hbc))
        (broadcast ⟨2, ![A, M]⟩ (Scalar.ofBits (F := Ideal) .f32 0x00000000#32))
      = act x b := by
  funext i
  obtain ⟨p, j, rfl⟩ : ∃ (p : Fin A) (j : Fin M), i = ix2 p j := ⟨i 0, i 1, eq_ix2 i⟩
  rw [shapeCast_self, shapeCast_self, shapeCast_self, maximumf_apply, addf_apply, broadcast_apply,
    broadcastTo_1b_ab_apply]
  rfl

/-- The host's form: the row broadcast in dimensions (0, 1), added, and the maximum with a broadcast of the rank-0
    zero. -/
theorem host_act {A M : ℕ} (x : (⟨2, ![A, M]⟩ : Shape).Idx → EReal) (b : (⟨2, ![1, M]⟩ : Shape).Idx → EReal)
    (hbc : (⟨2, ![1, M]⟩ : Shape).BroadcastsInDim ⟨2, ![A, M]⟩ ![0, 1])
    (h0 : (⟨0, ![]⟩ : Shape).BroadcastsInDim ⟨2, ![A, M]⟩ ![]) :
    maximumf (F := Ideal) (φ := .f32)
        (addf x (broadcastInDim ⟨2, ![A, M]⟩ ![0, 1] hbc b))
        (broadcastInDim ⟨2, ![A, M]⟩ ![] h0 (constant (F := Ideal) ⟨0, ![]⟩ .f32 0x00000000#32))
      = act x b := by
  funext i
  obtain ⟨p, j, rfl⟩ : ∃ (p : Fin A) (j : Fin M), i = ix2 p j := ⟨i 0, i 1, eq_ix2 i⟩
  rw [maximumf_apply, addf_apply, broadcastInDim_oneRow_apply, broadcastInDim_scalar_apply, constant_apply]
  rfl

/-- A kernel's form of the shifted product's last step: the row re-cast (twice) and broadcast down the rows, added. -/
theorem kernel_shift {A M : ℕ} (y : (⟨2, ![A, M]⟩ : Shape).Idx → EReal) (b : (⟨2, ![1, M]⟩ : Shape).Idx → EReal)
    (hb : (⟨2, ![1, M]⟩ : Shape).ShapeCasts ⟨2, ![1, M]⟩) (hbc : (⟨2, ![1, M]⟩ : Shape).Broadcasts ⟨2, ![A, M]⟩) :
    addf (F := Ideal) (φ := .f32) y (broadcastTo ⟨2, ![A, M]⟩ (shapeCast ⟨2, ![1, M]⟩ (shapeCast ⟨2, ![1, M]⟩ b hb) hb) hbc)
      = shift y b := by
  funext i
  obtain ⟨p, j, rfl⟩ : ∃ (p : Fin A) (j : Fin M), i = ix2 p j := ⟨i 0, i 1, eq_ix2 i⟩
  rw [shapeCast_self, shapeCast_self, addf_apply, broadcastTo_1b_ab_apply]
  rfl

/-- The host's form: the row broadcast in dimensions (0, 1), added. -/
theorem host_shift {A M : ℕ} (y : (⟨2, ![A, M]⟩ : Shape).Idx → EReal) (b : (⟨2, ![1, M]⟩ : Shape).Idx → EReal)
    (hbc : (⟨2, ![1, M]⟩ : Shape).BroadcastsInDim ⟨2, ![A, M]⟩ ![0, 1]) :
    addf (F := Ideal) (φ := .f32) y (broadcastInDim ⟨2, ![A, M]⟩ ![0, 1] hbc b) = shift y b := by
  funext i
  obtain ⟨p, j, rfl⟩ : ∃ (p : Fin A) (j : Fin M), i = ix2 p j := ⟨i 0, i 1, eq_ix2 i⟩
  rw [addf_apply, broadcastInDim_oneRow_apply]
  rfl

/-! ## A vector as a one-row matrix, two ways -/

/-- A vector of `n` entries re-cast as one row is the vector broadcast along axis 1 into one row. -/
theorem row_cast_eq_broadcast {n : ℕ} {α : Type} (v : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ v hc = broadcastInDim ⟨2, ![1, n]⟩ ![1] hb v := by
  funext i
  obtain ⟨r, t, rfl⟩ : ∃ (r : Fin 1) (t : Fin n), i = ix2 r t := ⟨i 0, i 1, eq_ix2 i⟩
  have hr : r = 0 := Subsingleton.elim _ _
  subst hr
  have e2 := shapeCast_apply v hc (ix2 (0 : Fin 1) t) (ix1 t) (by
    rw [Shape.rowMajor_val_two, Shape.rowMajor_val_one]; show t.val = 0 * n + t.val; omega)
  have e3 := broadcastInDim_apply ![1] hb v (ix2 (0 : Fin 1) t) (ix1 t) (by
    intro a
    match a with
    | ⟨0, _⟩ =>
      show t.val = if n = 1 then 0 else t.val
      split
      · have := t.isLt; omega
      · rfl)
  exact e2.trans e3.symm

end Cert.Dense

end
-- ==== Proof.OutKernel.lean ====
/-
  The third kernel's arithmetic, read entry by entry.

  The body loads a block of 5000 rows of the aggregated messages and of the first layer's output, the gain and the
  offset of the normalisation as one-row matrices, the 128 × 40 weight matrix and the one-row bias, and stores one
  5000 × 40 block.  Entry (p, j) of what it stores depends only on row p of the two row blocks: it is `outRow` of
  those two rows (the normalisation spelt with the reciprocal square root).  Two steps: the blended 5000 × 128
  matrix at (p, k) is `blend` of row p (the two lane sums become the row's mean and variance); the matrix product
  into a zero accumulator plus the broadcast bias row is the sum over k against column j of the weights, plus the
  bias at j.  Changes of float format are the identity on the extended reals.
-/
import proofs.«123778_j26439818674288_2_alg».proof.Proof.Gen.KernelIdeal.Skeleton
import proofs.«123778_j26439818674288_2_alg».proof.Proof.OutSpec
import proofs.«123778_j26439818674288_2_alg».proof.Proof.LayerNorm
import proofs.«123778_j26439818674288_2_alg».proof.Proof.LibColumns
import proofs.«123778_j26439818674288_2_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Out

open Idealize.ShloMosaic Idealize.ShloMosaic.ValueIdx Cert.KernelIdeal Cert.KernelIdeal.Gen

/-- A reciprocal square root at an index is the reciprocal square root of the element. -/
theorem rsqrt_apply {s : Shape} {φ : FTy} (a : FVec Ideal s φ) (i : s.Idx) : rsqrt a i = Ideal.rsqrt (a i) := rfl

/-- A lane sum of an `n × m` matrix along its rows, with the accumulator's neutrality stated on the words themselves:
    the sum of the row. -/
theorem rowSum_apply {n m : Nat} (src : FVec Ideal ⟨2, ![n, m]⟩ .f32) (h : (⟨2, ![n, m]⟩ : Shape).Reduces [1] ⟨1, ![n]⟩)
    (hφ : FKind.Formats .f32) (hacc : (0x00000000#32 : BitVec 32) = 0x00000000#32) (r : Fin n) :
    multiReduction .add [1] ⟨1, ![n]⟩ src 0x00000000#32 h hφ hacc (ix1 r) = ∑ k : Fin m, src (ix2 r k) :=
  Cert.LibColumns.multiReduction_rows src h hφ hacc r

/-- The blended matrix at (p, k): `blend` of row p of the two row blocks, with the one-row gain and offset. -/
theorem blend_apply (agg : Vec Ideal S5000x128 .f32) (g1 beta1 : Vec Ideal S1x128 .f32) (ego : Vec Ideal S5000x128 .f32)
    (p : Fin 5000) (k : Fin 128) :
    k2_pay2 (F := Ideal) agg g1 beta1 ego (ix2 p k)
      = blend Cert.LN.lnK (fun q => ego (ix2 p q)) (fun q => agg (ix2 p q)) (fun q => g1 (ix2 (0 : Fin 1) q))
          (fun q => beta1 (ix2 (0 : Fin 1) q)) k := by
  unfold k2_pay2
  simp only [truncf_apply, addf_apply, mulf_apply, subf_apply, divf_apply, maximumf_apply, broadcast_apply, shapeCast_self,
    rsqrt_apply, broadcastTo_1b_ab_apply, Cert.LibColumns.broadcastTo_col, Cert.LibColumns.shapeCast_vec_col]
  rw [rowSum_apply, rowSum_apply]
  simp only [mulf_apply, subf_apply, divf_apply, maximumf_apply, broadcast_apply, Cert.LibColumns.broadcastTo_col,
    Cert.LibColumns.shapeCast_vec_col]
  rw [rowSum_apply]
  simp only [maximumf_apply, broadcast_apply]
  rfl

/-- The weights re-cast and narrowed are the weights. -/
theorem weights_apply (w : Vec Ideal S128x40 .f32) (i : S128x40.Idx) : k2_pay3 (F := Ideal) w i = w i := by
  unfold k2_pay3
  rw [truncf_apply, shapeCast_self]

/-! The four coordinate facts of the kernel's plain `[5000,128] × [128,40]` product. -/

theorem dot_lhs0 (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide),
    dif_pos (show (0 : Fin S5000x128.rank) ∈ dot_S5000x128_S128x40_S5000x40_1_0_0_1_n_n.lhsNonContracting by decide)]
  rfl
theorem dot_lhs1 (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q
theorem dot_rhs0 (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q
theorem dot_rhs1 (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide),
    dif_pos (show (1 : Fin S128x40.rank) ∈ dot_S5000x128_S128x40_S5000x40_1_0_0_1_n_n.rhsNonContracting by decide)]
  rfl

/-- The stored block at (p, j): the product's sum over k plus the bias at j. -/
theorem product_apply (x : FVec Ideal S5000x128 .bf16) (w : FVec Ideal S128x40 .bf16) (b : Vec Ideal S1x40 .f32)
    (p : Fin 5000) (j : Fin 40) :
    k2_pay1 (F := Ideal) x w b (ix2 p j) = (∑ k : Fin 128, x (ix2 p k) * w (ix2 k j)) + b (ix2 (0 : Fin 1) j) := by
  unfold k2_pay1
  refine (addf_apply _ _ _).trans ?_
  refine congrArg₂ (· + ·) ?_ ?_
  · exact (congrFun (Cert.Dense.matmul_zero_eq_prod dot_S5000x128_S128x40_S5000x40_1_0_0_1_n_n rfl rfl
      dot_lhs0 dot_lhs1 dot_rhs0 dot_rhs1 none x w) (ix2 p j)).trans (Cert.Dense.prod_apply x w p j)
  · rw [shapeCast_self]
    exact broadcastTo_1b_ab_apply b _ p j

/-- WHAT THE BODY STORES at (p, j), from the blocks it loads: `outRow` of row p of the two row blocks. -/
theorem stored_apply (ego agg : Vec Ideal S5000x128 .f32) (g1 beta1 : Vec Ideal S1x128 .f32) (w : Vec Ideal S128x40 .f32)
    (b : Vec Ideal S1x40 .f32) (p : Fin 5000) (j : Fin 40) :
    k2_pay1 (F := Ideal) (k2_pay2 agg g1 beta1 ego) (k2_pay3 w) b (ix2 p j)
      = outRow Cert.LN.lnK (fun q => ego (ix2 p q)) (fun q => agg (ix2 p q)) (fun q => g1 (ix2 (0 : Fin 1) q))
          (fun q => beta1 (ix2 (0 : Fin 1) q)) (fun j k => w (ix2 k j)) (fun j => b (ix2 (0 : Fin 1) j)) j := by
  rw [product_apply]
  unfold outRow
  refine congrArg₂ (· + ·) (Finset.sum_congr rfl fun k _ => ?_) rfl
  rw [blend_apply, weights_apply]

end Cert.Out

end
-- ==== Proof.OutBlocks.lean ====
/-
  From the third kernel's blocks to its output array.

  The grid has ten points; point t works on rows 5000·t … 5000·t + 4999: the two row-block windows and the output
  window sit at block (t, 0), the four parameter windows (gain, offset, weights, bias) at block (0, 0) at every point.
  So what point t writes back is the block of rows 5000·t … of ONE function of the arrays as the region finds them:
  entry (i, j) is `outRow` of row i of the first layer's output and row i of the aggregated messages.  The ten blocks
  tile the 50000 × 40 output (row i lies in the block of point i / 5000), so the array ends holding that function.
-/
import proofs.«123778_j26439818674288_2_alg».proof.Proof.Gen.KernelIdeal.Frame
import proofs.«123778_j26439818674288_2_alg».proof.Proof.OutKernel
import Idealize.ShloMosaic.Lib.Pipeline.Value
import Idealize.ShloMosaic.Lib.Tactic

noncomputable section

open scoped BigOperators

open Idealize.ShloMosaic Idealize.ShloMosaic.TcCoe Idealize.SL.Sem Idealize.ShloMosaic.ValueIdx
open Idealize.ShloMosaic.Pipeline (Dat)

namespace Cert.Out

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- `outRow` takes equal values on rows, parameters and columns that agree entry by entry. -/
theorem outRow_congr {ln : (Fin 128 → EReal) → (Fin 128 → EReal) → (Fin 128 → EReal) → Fin 128 → EReal}
    {ego ego' agg agg' g g' b b' : Fin 128 → EReal} {W W' : Fin 40 → Fin 128 → EReal} {b2 b2' : Fin 40 → EReal} {j j' : Fin 40}
    (h0 : ∀ q, ego q = ego' q) (h1 : ∀ q, agg q = agg' q) (h2 : ∀ q, g q = g' q) (h3 : ∀ q, b q = b' q)
    (h4 : ∀ j k, W j k = W' j k) (h5 : ∀ j, b2 j = b2' j) (hj : j = j') :
    outRow ln ego agg g b W b2 j = outRow ln ego' agg' g' b' W' b2' j' := by
  obtain rfl : ego = ego' := funext h0
  obtain rfl : agg = agg' := funext h1
  obtain rfl : g = g' := funext h2
  obtain rfl : b = b' := funext h3
  obtain rfl : W = W' := funext fun j => funext (h4 j)
  obtain rfl : b2 = b2' := funext h5
  rw [hj]

/-- What the output array ends holding: entry (i, j) from row i of the two row arrays and the four parameter arrays, as
    the region finds them. -/
def outArr (c : Dev nD) : S50000x40.Idx → EReal := fun i =>
  outRow Cert.LN.lnK
    (fun k => (V c main_v5_0 : S50000x128.Idx → EReal) (ix2 (i 0 : Fin 50000) k))
    (fun k => (V c main_v41 : S50000x128.Idx → EReal) (ix2 (i 0 : Fin 50000) k))
    (fun k => (V c main_v42 : S1x128.Idx → EReal) (ix2 (0 : Fin 1) k))
    (fun k => (V c main_v43 : S1x128.Idx → EReal) (ix2 (0 : Fin 1) k))
    (fun j k => (V c main_v44 : S128x40.Idx → EReal) (ix2 k j))
    (fun j => (V c main_v45 : S1x40.Idx → EReal) (ix2 (0 : Fin 1) j))
    (i 1 : Fin 40)

/-- The printed index maps, decided over the grid: the row-block windows and the output window sit at block (t, 0), the
    parameter windows at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-! Each input window's block at point t, read at an entry, is an entry of its array. -/

theorem ego_blk (c : Dev nD) (t : Fin cfg2.N) (r : Fin 5000) (k : Fin 128) (i : S50000x128.Idx)
    (h0 : (i 0).val = t.val * 5000 + r.val) (h1 : (i 1).val = k.val) :
    (iblk2 V c 0 t : Vec Ideal S5000x128 .f32) (ix2 r k) = (V c main_v5_0 : S50000x128.Idx → EReal) i := by
  obtain ⟨a0, a1, -⟩ := idx_facts t
  unfold iblk2
  rw [View.read_apply]
  show V c main_v5_0 _ = V c main_v5_0 _
  congr 1
  funext a
  apply Fin.ext
  match a with
  | ⟨0, _⟩ => show win2_0.index t (0 : Fin 2) * 5000 + 1 * r.val = (i 0).val; rw [a0, h0]; omega
  | ⟨1, _⟩ => show win2_0.index t (1 : Fin 2) * 128 + 1 * k.val = (i 1).val; rw [a1, h1]; omega

theorem agg_blk (c : Dev nD) (t : Fin cfg2.N) (r : Fin 5000) (k : Fin 128) (i : S50000x128.Idx)
    (h0 : (i 0).val = t.val * 5000 + r.val) (h1 : (i 1).val = k.val) :
    (iblk2 V c 1 t : Vec Ideal S5000x128 .f32) (ix2 r k) = (V c main_v41 : S50000x128.Idx → EReal) i := by
  obtain ⟨-, -, a0, a1, -⟩ := idx_facts t
  unfold iblk2
  rw [View.read_apply]
  show V c main_v41 _ = V c main_v41 _
  congr 1
  funext a
  apply Fin.ext
  match a with
  | ⟨0, _⟩ => show win2_1.index t (0 : Fin 2) * 5000 + 1 * r.val = (i 0).val; rw [a0, h0]; omega
  | ⟨1, _⟩ => show win2_1.index t (1 : Fin 2) * 128 + 1 * k.val = (i 1).val; rw [a1, h1]; omega

theorem gain_blk (c : Dev nD) (t : Fin cfg2.N) (k : Fin 128) :
    (iblk2 V c 2 t : Vec Ideal S1x128 .f32) (ix2 (0 : Fin 1) k) = (V c main_v42 : S1x128.Idx → EReal) (ix2 (0 : Fin 1) k) := by
  obtain ⟨-, -, -, -, a0, a1, -⟩ := idx_facts t
  unfold iblk2
  rw [View.read_apply]
  show V c main_v42 _ = V c main_v42 _
  congr 1
  funext a
  apply Fin.ext
  match a with
  | ⟨0, _⟩ => show win2_2.index t (0 : Fin 2) * 1 + 1 * 0 = 0; rw [a0]
  | ⟨1, _⟩ => show win2_2.index t (1 : Fin 2) * 128 + 1 * k.val = k.val; rw [a1]; omega

theorem offset_blk (c : Dev nD) (t : Fin cfg2.N) (k : Fin 128) :
    (iblk2 V c 3 t : Vec Ideal S1x128 .f32) (ix2 (0 : Fin 1) k) = (V c main_v43 : S1x128.Idx → EReal) (ix2 (0 : Fin 1) k) := by
  obtain ⟨-, -, -, -, -, -, a0, a1, -⟩ := idx_facts t
  unfold iblk2
  rw [View.read_apply]
  show V c main_v43 _ = V c main_v43 _
  congr 1
  funext a
  apply Fin.ext
  match a with
  | ⟨0, _⟩ => show win2_3.index t (0 : Fin 2) * 1 + 1 * 0 = 0; rw [a0]
  | ⟨1, _⟩ => show win2_3.index t (1 : Fin 2) * 128 + 1 * k.val = k.val; rw [a1]; omega

theorem weights_blk (c : Dev nD) (t : Fin cfg2.N) (k : Fin 128) (j : Fin 40) :
    (iblk2 V c 4 t : Vec Ideal S128x40 .f32) (ix2 k j) = (V c main_v44 : S128x40.Idx → EReal) (ix2 k j) := by
  obtain ⟨-, -, -, -, -, -, -, -, a0, a1, -⟩ := idx_facts t
  unfold iblk2
  rw [View.read_apply]
  show V c main_v44 _ = V c main_v44 _
  congr 1
  funext a
  apply Fin.ext
  match a with
  | ⟨0, _⟩ => show win2_4.index t (0 : Fin 2) * 128 + 1 * k.val = k.val; rw [a0]; omega
  | ⟨1, _⟩ => show win2_4.index t (1 : Fin 2) * 40 + 1 * j.val = j.val; rw [a1]; omega

theorem bias_blk (c : Dev nD) (t : Fin cfg2.N) (j : Fin 40) :
    (iblk2 V c 5 t : Vec Ideal S1x40 .f32) (ix2 (0 : Fin 1) j) = (V c main_v45 : S1x40.Idx → EReal) (ix2 (0 : Fin 1) j) := by
  obtain ⟨-, -, -, -, -, -, -, -, -, -, a0, a1, -⟩ := idx_facts t
  unfold iblk2
  rw [View.read_apply]
  show V c main_v45 _ = V c main_v45 _
  congr 1
  funext a
  apply Fin.ext
  match a with
  | ⟨0, _⟩ => show win2_5.index t (0 : Fin 2) * 1 + 1 * 0 = 0; rw [a0]
  | ⟨1, _⟩ => show win2_5.index t (1 : Fin 2) * 40 + 1 * j.val = j.val; rw [a1]; omega

/-- WHAT POINT t WRITES BACK is block t of `outArr`. -/
theorem flushed_eq (c : Dev nD) (t : Fin cfg2.N) :
    (dat2 (F := Ideal) V c).flushed 6 t = ((cfg2.win 6).blk t).view.read (Elt Ideal) (outArr V c) := by
  show (cfg2.win 6).cut (grid2.coords t) ((dat2 (F := Ideal) V c).after 6 t) = _
  rw [after2_6]
  unfold out2_6
  rw [View.canon_unit_zero hz]
  simp only [View.ld_unit_zero (S := S5000x128) hz, View.ld_unit_zero (S := S1x128) hz, View.ld_unit_zero (S := S128x40) hz,
    View.ld_unit_zero (S := S1x40) hz]
  obtain ⟨-, -, -, -, -, -, -, -, -, -, -, -, g0, g1⟩ := idx_facts t
  funext y
  obtain ⟨r, j, rfl⟩ : ∃ (r : Fin 5000) (j : Fin 40), y = ix2 r j := ⟨y 0, y 1, eq_ix2 y⟩
  show k2_pay1 (F := Ideal) (k2_pay2 (iblk2 V c 1 t) (iblk2 V c 2 t) (iblk2 V c 3 t) (iblk2 V c 0 t)) (k2_pay3 (iblk2 V c 4 t))
      (iblk2 V c 5 t) (ix2 r j) = outArr V c (((cfg2.win 6).blk t).view.emb (ix2 r j))
  rw [stored_apply (iblk2 V c 0 t) (iblk2 V c 1 t) (iblk2 V c 2 t) (iblk2 V c 3 t) (iblk2 V c 4 t) (iblk2 V c 5 t) r j]
  have hr : ((((cfg2.win 6).blk t).view.emb (ix2 r j)) 0).val = t.val * 5000 + r.val := by
    show win2_6.index t (0 : Fin 2) * 5000 + 1 * r.val = _; rw [g0]; omega
  have hj : ((((cfg2.win 6).blk t).view.emb (ix2 r j)) 1).val = j.val := by
    show win2_6.index t (1 : Fin 2) * 40 + 1 * j.val = _; rw [g1]; omega
  exact outRow_congr (fun q => ego_blk V c t r q _ hr rfl) (fun q => agg_blk V c t r q _ hr rfl)
    (fun q => gain_blk V c t q) (fun q => offset_blk V c t q) (fun j k => weights_blk V c t k j) (fun j => bias_blk V c t j)
    (Fin.ext hj.symm)

/-- An index of the array is in point t's block iff each coordinate is in the block's range on its axis. -/
theorem mem_blk (t : Fin cfg2.N) (i : S50000x40.Idx) :
    i ∈ ((cfg2.win 6).blk t).view.set ↔ ∀ a : Fin 2, win2_6.index t a * S5000x40.size a ≤ (i a).val
      ∧ (i a).val < win2_6.index t a * S5000x40.size a + S5000x40.size a := by
  show i ∈ ((View.whole main_v46).slice (win2_6.rect t)).set ↔ _
  rw [View.set_slice_whole, Rect.mem_set_unit]
  exact Iff.rfl

/-- Every index of the output array is in the block of the point its row selects. -/
theorem cover (i : S50000x40.Idx) :
    ∃ t : Fin cfg2.N, (cfg2.win 6).flush t = true ∧ i ∈ ((cfg2.win 6).blk t).view.set := by
  have hi0 : (i 0).val < 50000 := (i 0).isLt
  have hi1 : (i 1).val < 40 := (i 1).isLt
  have ht : (i 0).val / 5000 < cfg2.N := Nat.lt_of_lt_of_eq (by omega) N_2.symm
  obtain ⟨-, -, -, -, -, -, -, -, -, -, -, -, g0, g1⟩ := idx_facts ⟨(i 0).val / 5000, ht⟩
  refine ⟨⟨(i 0).val / 5000, ht⟩, flush2_6 _, ?_⟩
  rw [mem_blk]
  intro a
  match a with
  | ⟨0, _⟩ =>
    show win2_6.index ⟨(i 0).val / 5000, ht⟩ (0 : Fin 2) * 5000 ≤ (i 0).val
      ∧ (i 0).val < win2_6.index ⟨(i 0).val / 5000, ht⟩ (0 : Fin 2) * 5000 + 5000
    rw [g0]
    show (i 0).val / 5000 * 5000 ≤ (i 0).val ∧ (i 0).val < (i 0).val / 5000 * 5000 + 5000
    omega
  | ⟨1, _⟩ =>
    show win2_6.index ⟨(i 0).val / 5000, ht⟩ (1 : Fin 2) * 40 ≤ (i 1).val
      ∧ (i 1).val < win2_6.index ⟨(i 0).val / 5000, ht⟩ (1 : Fin 2) * 40 + 40
    rw [g1]
    omega

/-- THE OUTPUT ARRAY after the region: `outArr` of the arrays as the region finds them. -/
theorem region2_outArr (c : Dev nD) : (dat2 (F := Ideal) V c).arrAt 6 cfg2.N = outArr V c :=
  (dat2 (F := Ideal) V c).arrAt_eq_of_cover 6 (outArr V c) (fun t _ => flushed_eq V c t) cover

/-- The same with the function written out. -/
theorem region2_final (c : Dev nD) :
    (dat2 (F := Ideal) V c).arrAt 6 cfg2.N = fun i : S50000x40.Idx =>
      outRow Cert.LN.lnK
        (fun k => (V c main_v5_0 : S50000x128.Idx → EReal) (ix2 (i 0 : Fin 50000) k))
        (fun k => (V c main_v41 : S50000x128.Idx → EReal) (ix2 (i 0 : Fin 50000) k))
        (fun k => (V c main_v42 : S1x128.Idx → EReal) (ix2 (0 : Fin 1) k))
        (fun k => (V c main_v43 : S1x128.Idx → EReal) (ix2 (0 : Fin 1) k))
        (fun j k => (V c main_v44 : S128x40.Idx → EReal) (ix2 k j))
        (fun j => (V c main_v45 : S1x40.Idx → EReal) (ix2 (0 : Fin 1) j))
        (i 1 : Fin 40) :=
  region2_outArr V c

end Cert.Out

end
-- ==== Proof.OutRef.lean ====
/-
  The reference's tail, read entry by entry.

  After the scatter that sums the messages, the reference rectifies the 50000 × 128 matrix, normalises each row (a host
  sum along the row for the mean, a second one for the variance, a division by the square root), averages with the
  first layer's output, multiplies by the transposed 40 × 128 weights and adds the bias.  Entry (p, j) of the result
  depends only on row p of the scatter's result and of the first layer's output: it is `outRow` of those two rows (the
  normalisation spelt as a quotient by the square root).  A host sum is its initial value, the zero word, plus the sum
  of the row; the zero word is 0 and drops out.  The scatter's result and the first layer's output are kept as they
  are named; nothing here opens them.
-/
import proofs.«123778_j26439818674288_2_alg».proof.Proof.Gen.ReferenceIdeal.Read
import proofs.«123778_j26439818674288_2_alg».proof.Proof.OutSpec
import proofs.«123778_j26439818674288_2_alg».proof.Proof.LayerNorm
import Idealize.ShloMosaic.Lib.ValueIdx
import Idealize.ShloMosaic.PureOps.Ideal.Laws

noncomputable section

open scoped BigOperators

namespace Cert.Out

open Idealize.ShloMosaic Idealize.ShloMosaic.ValueIdx Cert.ReferenceIdeal Cert.ReferenceIdeal.Read

section Ref

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 x4 x5 : (⟨S128, .f32⟩ : BufTy).Contents (Elt Ideal))
  (x6 : (⟨S64x128, .f32⟩ : BufTy).Contents (Elt Ideal)) (x7 : (⟨S2x64, .f32⟩ : BufTy).Contents (Elt Ideal))
  (x8 x9 : (⟨S128, .f32⟩ : BufTy).Contents (Elt Ideal)) (x10 : (⟨S40x128, .f32⟩ : BufTy).Contents (Elt Ideal))
  (x11 : (⟨S40, .f32⟩ : BufTy).Contents (Elt Ideal))

/-- Row p of the summed messages, rectified. -/
def reluRow (p : Fin 50000) : Fin 128 → EReal :=
  fun q => max (val_main_v77 (F := Ideal) x0 x1 x2 x3 x4 x5 x6 x7 (ix2 p q)) zero

/-- The rectified matrix at (p, q). -/
theorem relu_ref (p : Fin 50000) (q : Fin 128) :
    val_main_v78 (F := Ideal) x0 x1 x2 x3 x4 x5 x6 x7 (ix2 p q) = reluRow x0 x1 x2 x3 x4 x5 x6 x7 p q := by
  rw [val_main_v78_apply, val_main_call2_v0_apply, val_main_call2_cst_apply]
  rfl

/-- The first host sum at row p: the sum of the rectified row. -/
theorem rowSum_ref (p : Fin 50000) :
    val_main_v79 (F := Ideal) x0 x1 x2 x3 x4 x5 x6 x7 (ix1 p) = ∑ q : Fin 128, reluRow x0 x1 x2 x3 x4 x5 x6 x7 p q := by
  rw [val_main_v79_apply, val_main_cst_13_apply]
  show Ideal.ofBits .f32 0x00000000#32 + _ = _
  rw [Ideal.ofBits_zero_f32, zero_add]
  refine Finset.sum_congr rfl fun q _ => ?_
  have e : idx_main_v79 (ix1 p) q = ix2 p q :=
    funext fun a => Fin.ext (by match a with | ⟨0, _⟩ => rfl | ⟨1, _⟩ => rfl)
  rw [e, relu_ref]

/-- The column of row means at p. -/
theorem mean_ref (p : Fin 50000) :
    val_main_v82 (F := Ideal) x0 x1 x2 x3 x4 x5 x6 x7 (ix2 p (0 : Fin 1)) = Cert.LN.mean (reluRow x0 x1 x2 x3 x4 x5 x6 x7 p) := by
  rw [val_main_v82_apply, val_main_v80_apply, val_main_v81_apply, val_main_cst_14_apply]
  have e : idx_main_v80 (ix2 p (0 : Fin 1)) = ix1 p :=
    funext fun a => Fin.ext (by match a with | ⟨0, _⟩ => rfl)
  rw [e, rowSum_ref]
  rfl

/-- The centred matrix at (p, q). -/
theorem centred_ref (p : Fin 50000) (q : Fin 128) :
    val_main_v84 (F := Ideal) x0 x1 x2 x3 x4 x5 x6 x7 (ix2 p q) = reluRow x0 x1 x2 x3 x4 x5 x6 x7 p q - Cert.LN.mean (reluRow x0 x1 x2 x3 x4 x5 x6 x7 p) := by
  rw [val_main_v84_apply, val_main_v83_apply, relu_ref]
  have e : idx_main_v83 (ix2 p q) = ix2 p (0 : Fin 1) :=
    funext fun a => Fin.ext (by match a with | ⟨0, _⟩ => rfl | ⟨1, _⟩ => rfl)
  rw [e, mean_ref]
  rfl

/-- The column of row variances at p. -/
theorem var_ref (p : Fin 50000) :
    val_main_v89 (F := Ideal) x0 x1 x2 x3 x4 x5 x6 x7 (ix2 p (0 : Fin 1)) = Cert.LN.var (reluRow x0 x1 x2 x3 x4 x5 x6 x7 p) := by
  rw [val_main_v89_apply, val_main_v87_apply, val_main_v88_apply, val_main_cst_16_apply]
  have e : idx_main_v87 (ix2 p (0 : Fin 1)) = ix1 p :=
    funext fun a => Fin.ext (by match a with | ⟨0, _⟩ => rfl)
  rw [e, val_main_v86_apply, val_main_cst_15_apply]
  show Ideal.div (Ideal.ofBits .f32 0x00000000#32 + _) _ = _
  rw [Ideal.ofBits_zero_f32, zero_add]
  unfold Cert.LN.var
  refine congrArg (fun s => Ideal.div s Cert.LN.n128) (Finset.sum_congr rfl fun q _ => ?_)
  have e' : idx_main_v86 (ix1 p) q = ix2 p q :=
    funext fun a => Fin.ext (by match a with | ⟨0, _⟩ => rfl | ⟨1, _⟩ => rfl)
  rw [e', val_main_v85_apply, centred_ref]
  rfl

/-- The normalised matrix at (p, k): the quotient spelling of the layer norm of the rectified row. -/
theorem ln_ref (p : Fin 50000) (k : Fin 128) :
    val_main_v102 (F := Ideal) x0 x1 x2 x3 x4 x5 x6 x7 x8 x9 (ix2 p k)
      = Cert.LN.lnR (reluRow x0 x1 x2 x3 x4 x5 x6 x7 p) (fun q => x8 (ix1 q)) (fun q => x9 (ix1 q)) k := by
  rw [val_main_v102_apply, val_main_v99_apply, val_main_v96_apply, val_main_v91_apply, val_main_v90_apply, val_main_v95_apply,
    val_main_v94_apply, val_main_v93_apply, val_main_v92_apply, val_main_cst_17_apply, val_main_v98_apply, val_main_v97_apply,
    val_main_v101_apply, val_main_v100_apply, relu_ref]
  have e90 : idx_main_v90 (ix2 p k) = ix2 p (0 : Fin 1) :=
    funext fun a => Fin.ext (by match a with | ⟨0, _⟩ => rfl | ⟨1, _⟩ => rfl)
  have e95 : idx_main_v95 (ix2 p k) = ix2 p (0 : Fin 1) :=
    funext fun a => Fin.ext (by match a with | ⟨0, _⟩ => rfl | ⟨1, _⟩ => rfl)
  have e98 : idx_main_v97 (idx_main_v98 (ix2 p k)) = ix1 k :=
    funext fun a => Fin.ext (by match a with | ⟨0, _⟩ => rfl)
  have e101 : idx_main_v100 (idx_main_v101 (ix2 p k)) = ix1 k :=
    funext fun a => Fin.ext (by match a with | ⟨0, _⟩ => rfl)
  rw [e90, e95, e98, e101, mean_ref, var_ref]
  rfl

/-- The blended matrix at (p, k). -/
theorem blend_ref (p : Fin 50000) (k : Fin 128) :
    val_main_v107 (F := Ideal) x0 x1 x2 x3 x4 x5 x6 x7 x8 x9 (ix2 p k)
      = blend Cert.LN.lnR (fun q => val_main_v29 (F := Ideal) x0 x2 x3 x4 x5 (ix2 p q))
          (fun q => val_main_v77 (F := Ideal) x0 x1 x2 x3 x4 x5 x6 x7 (ix2 p q)) (fun q => x8 (ix1 q)) (fun q => x9 (ix1 q)) k := by
  rw [val_main_v107_apply, val_main_v104_apply, val_main_v106_apply, val_main_v103_apply, val_main_v105_apply,
    val_main_cst_18_apply, val_main_cst_19_apply, ln_ref]
  rfl

/-- THE REFERENCE'S RESULT: entry (i, j) is `outRow` of row i of the first layer's output and of the summed messages. -/
theorem ref_out :
    val_main_v112 (F := Ideal) x0 x1 x2 x3 x4 x5 x6 x7 x8 x9 x10 x11
      = fun i : S50000x40.Idx =>
          outRow Cert.LN.lnR (fun k => val_main_v29 (F := Ideal) x0 x2 x3 x4 x5 (ix2 (i 0 : Fin 50000) k))
            (fun k => val_main_v77 (F := Ideal) x0 x1 x2 x3 x4 x5 x6 x7 (ix2 (i 0 : Fin 50000) k)) (fun k => x8 (ix1 k)) (fun k => x9 (ix1 k))
            (fun j k => x10 (ix2 j k)) (fun j => x11 (ix1 j)) (i 1 : Fin 40) := by
  funext i
  obtain ⟨p, j, rfl⟩ : ∃ (p : Fin 50000) (j : Fin 40), i = ix2 p j := ⟨i 0, i 1, eq_ix2 i⟩
  show _ = outRow Cert.LN.lnR (fun k => val_main_v29 (F := Ideal) x0 x2 x3 x4 x5 (ix2 p k))
    (fun k => val_main_v77 (F := Ideal) x0 x1 x2 x3 x4 x5 x6 x7 (ix2 p k)) (fun k => x8 (ix1 k)) (fun k => x9 (ix1 k))
    (fun j k => x10 (ix2 j k)) (fun j => x11 (ix1 j)) j
  rw [val_main_v112_apply, val_main_v109_apply, val_main_v111_apply, val_main_v110_apply]
  have e : idx_main_v110 (idx_main_v111 (ix2 p j)) = ix1 j :=
    funext fun a => Fin.ext (by match a with | ⟨0, _⟩ => rfl)
  rw [e]
  unfold outRow
  refine congrArg₂ (· + ·) (Finset.sum_congr rfl fun k _ => ?_) rfl
  have el : lidx_main_v109 (ix2 p j) k = ix2 p k :=
    funext fun a => Fin.ext (by match a with | ⟨0, _⟩ => rfl | ⟨1, _⟩ => rfl)
  have er : idx_main_v108 (ridx_main_v109 (ix2 p j) k) = ix2 j k :=
    funext fun a => Fin.ext (by match a with | ⟨0, _⟩ => rfl | ⟨1, _⟩ => rfl)
  rw [el, val_main_v108_apply, er, blend_ref]

end Ref

end Cert.Out

end
-- ==== Proof.KernelValue.lean ====
/-
  The idealized kernel's result buffer, after the run, is the reference's last stage applied to the kernel's own argument
  arrays. The run's boundaries are followed one by one: after the first kernel the two outputs are the reference's
  normalised features and their projection (the two spellings of the layer normalisation agree); the host gathers,
  being the reference's own operations on equal arrays, give the reference's gathered rows; the second kernel leaves the
  reference's attention weights; the host's products and scatter-add give the reference's aggregate; and the third kernel
  leaves the reference's result.
-/
import proofs.«123778_j26439818674288_2_alg».proof.Proof.StageEgo
import proofs.«123778_j26439818674288_2_alg».proof.Proof.StageAtt
import proofs.«123778_j26439818674288_2_alg».proof.Proof.StageOut
import proofs.«123778_j26439818674288_2_alg».proof.Proof.OutBlocks
import proofs.«123778_j26439818674288_2_alg».proof.Proof.OutRef

noncomputable section

namespace Cert.Bridge

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg) (c : Dev nD)

set_option maxHeartbeats 1000000 in
/-- The result buffer at the last boundary is the reference's last stage of the kernel's arguments. -/
theorem kernel_value : W6 m ρ c (Proc.devRef .tc main_v46)
    = Cert.ReferenceIdeal.Read.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have hH0 := stage_h0 m ρ c
  have hH := stage_h m ρ c
  have k1 := kept2_arg1 m ρ c
  have k7 := kept2_arg7 m ρ c
  have k8 := kept2_arg8 m ρ c
  have k9 := kept2_arg9 m ρ c
  have k10 := kept2_arg10 m ρ c
  have k11 := kept2_arg11 m ρ c
  -- the boundary before the second kernel
  have h17 : W3 m ρ c (Proc.devRef .tc main_v17) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
    refine (s1_hrow (W2 m ρ c)).trans ?_
    rw [hH, k1]; rfl
  have h24 : W3 m ρ c (Proc.devRef .tc main_v24) = Cert.ReferenceIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
    refine (s1_hcol (W2 m ρ c)).trans ?_
    rw [hH, k1]; rfl
  have h7 : W3 m ρ c (Proc.devRef .tc main_v7) = Cert.ReferenceIdeal.Read.val_main_v33 (F := Ideal) (m ((c : Thread nD τ).loc main_arg1)) := by
    refine (s1_row (W2 m ρ c)).trans ?_
    rw [k1]
  have hw0 : ∀ k : Fin 64, W3 m ρ c (Proc.devRef .tc main_v27) (ix2 (0 : Fin 1) k) = (m ((c : Thread nD τ).loc main_arg7)) (ix2 (0 : Fin 2) k) :=
    fun k => (s1_w0_apply (W2 m ρ c) k).trans (congrFun k7 _)
  have hw1 : ∀ k : Fin 64, W3 m ρ c (Proc.devRef .tc main_v30) (ix2 (0 : Fin 1) k) = (m ((c : Thread nD τ).loc main_arg7)) (ix2 (1 : Fin 2) k) :=
    fun k => (s1_w1_apply (W2 m ρ c) k).trans (congrFun k7 _)
  -- the boundary after the second kernel
  have h31 : W4 m ρ c (Proc.devRef .tc main_v31) = Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
    refine (W4_arr m ρ c 4).trans ?_
    rw [Cert.Att.region1_final (V3 m ρ) c, Cert.Att.ref_att]
    funext i
    exact Cert.Att.attRow_congr (fun k => congrFun h17 _) (fun k => congrFun h24 _) hw0 hw1 rfl
  have h24' : W4 m ρ c (Proc.devRef .tc main_v24) = Cert.ReferenceIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
    (W4_arr m ρ c 1).trans (((dat1 (V3 m ρ) c).arrAt_in 1 rfl _).trans ((A_eq1 (V3 m ρ) c 1).trans h24))
  have h7' : W4 m ρ c (Proc.devRef .tc main_v7) = Cert.ReferenceIdeal.Read.val_main_v33 (F := Ideal) (m ((c : Thread nD τ).loc main_arg1)) :=
    (W4_of_ne m ρ c main_v7 (by decide)).trans h7
  have hH0' : W4 m ρ c (Proc.devRef .tc main_v5_0) = Cert.ReferenceIdeal.Read.val_main_v29 (F := Ideal) (m ((c : Thread nD τ).loc main_arg0)) (m ((c : Thread nD τ).loc main_arg2)) (m ((c : Thread nD τ).loc main_arg3)) (m ((c : Thread nD τ).loc main_arg4)) (m ((c : Thread nD τ).loc main_arg5)) :=
    (W4_of_ne m ρ c main_v5_0 (by decide)).trans ((s1_keep_v5_0 (W2 m ρ c)).trans hH0)
  have k8' : W4 m ρ c (Proc.devRef .tc main_arg8) = (m ((c : Thread nD τ).loc main_arg8)) :=
    (W4_of_ne m ρ c main_arg8 (by decide)).trans ((s1_keep_arg8 (W2 m ρ c)).trans k8)
  have k9' : W4 m ρ c (Proc.devRef .tc main_arg9) = (m ((c : Thread nD τ).loc main_arg9)) :=
    (W4_of_ne m ρ c main_arg9 (by decide)).trans ((s1_keep_arg9 (W2 m ρ c)).trans k9)
  have k10' : W4 m ρ c (Proc.devRef .tc main_arg10) = (m ((c : Thread nD τ).loc main_arg10)) :=
    (W4_of_ne m ρ c main_arg10 (by decide)).trans ((s1_keep_arg10 (W2 m ρ c)).trans k10)
  have k11' : W4 m ρ c (Proc.devRef .tc main_arg11) = (m ((c : Thread nD τ).loc main_arg11)) :=
    (W4_of_ne m ρ c main_arg11 (by decide)).trans ((s1_keep_arg11 (W2 m ρ c)).trans k11)
  -- the boundary before the third kernel
  have h41 : W5 m ρ c (Proc.devRef .tc main_v41) = Cert.ReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
    s2_agg (W4 m ρ c) _ _ _ _ _ _ _ _ h7' h31 h24'
  have hego : W5 m ρ c (Proc.devRef .tc main_v5_0) = Cert.ReferenceIdeal.Read.val_main_v29 (F := Ideal) (m ((c : Thread nD τ).loc main_arg0)) (m ((c : Thread nD τ).loc main_arg2)) (m ((c : Thread nD τ).loc main_arg3)) (m ((c : Thread nD τ).loc main_arg4)) (m ((c : Thread nD τ).loc main_arg5)) :=
    (s2_keep_v5_0 (W4 m ρ c)).trans hH0'
  have hg1 : ∀ k : Fin 128, W5 m ρ c (Proc.devRef .tc main_v42) (ix2 (0 : Fin 1) k) = (m ((c : Thread nD τ).loc main_arg8)) (ix1 k) :=
    fun k => (s2_g1_apply (W4 m ρ c) k).trans (congrFun k8' _)
  have hb1 : ∀ k : Fin 128, W5 m ρ c (Proc.devRef .tc main_v43) (ix2 (0 : Fin 1) k) = (m ((c : Thread nD τ).loc main_arg9)) (ix1 k) :=
    fun k => (s2_beta1_apply (W4 m ρ c) k).trans (congrFun k9' _)
  have hw2 : ∀ (k : Fin 128) (j : Fin 40), W5 m ρ c (Proc.devRef .tc main_v44) (ix2 k j) = (m ((c : Thread nD τ).loc main_arg10)) (ix2 j k) :=
    fun k j => (s2_w2_apply (W4 m ρ c) k j).trans (congrFun k10' _)
  have hb2 : ∀ j : Fin 40, W5 m ρ c (Proc.devRef .tc main_v45) (ix2 (0 : Fin 1) j) = (m ((c : Thread nD τ).loc main_arg11)) (ix1 j) :=
    fun j => (s2_b2_apply (W4 m ρ c) j).trans (congrFun k11' _)
  -- the third kernel
  refine (W6_arr m ρ c 6).trans ?_
  rw [Cert.Out.region2_final (V5 m ρ) c, Cert.Out.ref_out, Cert.LN.lnK_eq_lnR]
  funext i
  exact Cert.Out.outRow_congr (fun q => congrFun hego _) (fun q => congrFun h41 _) hg1 hb1 (fun j k => hw2 k j) hb2 rfl

end Cert.Bridge

end
-- ==== Proof.lean ====
/-
  A graph network's forward pass — a dense layer with a rectifier and a layer normalisation, a projection, a two-way
  attention over the edges, a scatter-add of the attended messages, a second layer normalisation blended with the first
  stage and a final dense layer — computed by three kernels with host gathers and a host scatter-add between them,
  against the same computation written with jnp. On the extended reals the two programs compute the same array.
  The kernels tile the rows, which changes no row's value; a matrix unit's product into a zero accumulator and a lane sum
  are the sums the reference takes; the kernels multiply by rsqrt (var + ε) where the reference divides by sqrt (var + ε),
  and the two agree because a variance is never negative on the extended reals, so var + ε lies in (0, +∞]; the
  reference's softmax differs from the kernel's two-way one by a division by 1, a maximum with −∞ and an added zero.
  No finiteness of the inputs is used.
  The three frames: the two kernel programs' frames are the generated ones; the reference's is its generated run with the
  result dropped. The idealization rewrote nothing, so its claim is trivial. The value claim: the kernel's run with its
  result named (Proof/KernelRun.lean) ends, by Proof/KernelValue.lean, at the reference's last stage of the kernel's own
  arguments; the reference's generated run ends at the same stage of its arguments, which agree.
-/
import proofs.«123778_j26439818674288_2_alg».proof.Defs
import proofs.«123778_j26439818674288_2_alg».proof.Proof.Gen.Kernel
import proofs.«123778_j26439818674288_2_alg».proof.Proof.Gen.Kernel.Skeleton
import proofs.«123778_j26439818674288_2_alg».proof.Proof.Gen.Kernel.Launch
import proofs.«123778_j26439818674288_2_alg».proof.Proof.Gen.Kernel.Points
import proofs.«123778_j26439818674288_2_alg».proof.Proof.Gen.Kernel.Frame
import proofs.«123778_j26439818674288_2_alg».proof.Proof.Gen.KernelIdeal
import proofs.«123778_j26439818674288_2_alg».proof.Proof.Gen.KernelIdeal.Skeleton
import proofs.«123778_j26439818674288_2_alg».proof.Proof.Gen.KernelIdeal.Launch
import proofs.«123778_j26439818674288_2_alg».proof.Proof.Gen.KernelIdeal.Points
import proofs.«123778_j26439818674288_2_alg».proof.Proof.Gen.KernelIdeal.Frame
import proofs.«123778_j26439818674288_2_alg».proof.Proof.Gen.ReferenceIdeal
import proofs.«123778_j26439818674288_2_alg».proof.Proof.Gen.ReferenceIdeal.Run
import proofs.«123778_j26439818674288_2_alg».proof.Proof.Gen.ReferenceIdeal.Read
import proofs.«123778_j26439818674288_2_alg».proof.Proof.Gen.Pre_finite_inputs
import proofs.«123778_j26439818674288_2_alg».proof.Proof.KernelRun
import proofs.«123778_j26439818674288_2_alg».proof.Proof.KernelValue
import Idealize.ShloMosaic.Adequacy
import Idealize.ShloMosaic.Init

noncomputable section

namespace Cert.Proof

open Idealize.ShloMosaic Idealize.ShloMosaic.TcCoe Idealize.SL.Sem

/-- Both idealized programs end at the reference's last stage of arguments that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Read.val_main_v112 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.Bridge.kernel_value m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v112_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
